-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2000000x32 : Shape := ⟨2, ![2000000, 32]⟩
abbrev S2x2000000 : Shape := ⟨2, ![2, 2000000]⟩
abbrev S32x32 : Shape := ⟨2, ![32, 32]⟩
abbrev S32 : Shape := ⟨1, ![32]⟩
abbrev S32x96 : Shape := ⟨2, ![32, 96]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S2000000x32 : S_.BroadcastsInDim S2000000x32 (![] : Fin 0 → Fin S2000000x32.rank)
  reducesTo_S2000000x32_S_d0_1 : S2000000x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x96 : S_.BroadcastsInDim S32x96 (![] : Fin 0 → Fin S32x96.rank)
  reducesTo_S32x96_S_d0_1 : S32x96.ReducesTo [0, 1] S_

variable [Facts]

def fn_part4 {F : FTy → Type} [FloatOps F] (main_arg15 : FVec F S32 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg12 : FVec F S32x96 .f32) (main_arg13 : FVec F S32 .f32) (main_arg14 : FVec F S32x32 .f32) (main_arg15 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x96 .f32 := Host.absf main_arg12
  let main_cst_20 : FVec F S_ .f32 := constant S_ .f32 0x7F800000#32
  let main_v55 : FVec F S32x96 .f32 := broadcastInDim S32x96 ![] bcast_S_S32x96 main_cst_20
  let main_v56 : IVec S32x96 1 := cmpf .olt main_v54 main_v55
  let main_c_21 : IVec S_ 1 := constantI S_ 1 1#1
  let main_v57 : IVec S_ 1 := (fun x v => Host.reduce IntOp.andi x v reducesTo_S32x96_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg15 main_v63 main_v67

def fn_part2 {F : FTy → Type} [FloatOps F] (main_arg8 : FVec F S32x32 .f32) (main_arg9 : FVec F S32 .f32) (main_arg10 : FVec F S32x32 .f32) (main_arg11 : FVec F S32 .f32) (main_arg12 : FVec F S32x96 .f32) (main_arg13 : FVec F S32 .f32) (main_arg14 : FVec F S32x32 .f32) (main_arg15 : FVec F S32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x96 .f32) (main_arg13 : FVec F S32 .f32) (main_arg14 : FVec F S32x32 .f32) (main_arg15 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x32 .f32) (main_arg1 : FVec F S100000x32 .f32) (main_arg2 : FVec F S2000000x32 .f32) (main_arg3 : IVec S2x2000000 32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x96 .f32) (main_arg13 : FVec F S32 .f32) (main_arg14 : FVec F S32x32 .f32) (main_arg15 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S2000000x32 .f32 := Host.absf main_arg2
  let main_cst_2 : FVec F S_ .f32 := constant S_ .f32 0x7F800000#32
  let main_v10 : FVec F S2000000x32 .f32 := broadcastInDim S2000000x32 ![] bcast_S_S2000000x32 main_cst_2
  let main_v11 : IVec S2000000x32 1 := cmpf .olt main_v9 main_v10
  let main_c_3 : IVec S_ 1 := constantI S_ 1 1#1
  let main_v12 : IVec S_ 1 := (fun x v => Host.reduce IntOp.andi x v reducesTo_S2000000x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x32 : Shape := ⟨2, ![100000, 32]⟩
abbrev S2000000x32 : Shape := ⟨2, ![2000000, 32]⟩
abbrev S2x2000000 : Shape := ⟨2, ![2, 2000000]⟩
abbrev S32x32 : Shape := ⟨2, ![32, 32]⟩
abbrev S32 : Shape := ⟨1, ![32]⟩
abbrev S32x96 : Shape := ⟨2, ![32, 96]⟩
abbrev S1x32 : Shape := ⟨2, ![1, 32]⟩
abbrev S10000x32 : Shape := ⟨2, ![10000, 32]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S8000x32 : Shape := ⟨2, ![8000, 32]⟩

abbrev nBuf : Space → Nat
  | .hbm => 50
  | .vmem => 30
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2000000x32, .f32⟩
  | .hbm, ⟨3, _⟩ => ⟨S2x2000000, .i32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x96, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S1x32, .f32⟩
  | .hbm, ⟨17, _⟩ => ⟨S1x32, .f32⟩
  | .hbm, ⟨18, _⟩ => ⟨S100000x32, .bf16⟩
  | .hbm, ⟨19, _⟩ => ⟨S1x32, .f32⟩
  | .hbm, ⟨20, _⟩ => ⟨S1x32, .f32⟩
  | .hbm, ⟨21, _⟩ => ⟨S100000x32, .bf16⟩
  | .hbm, ⟨22, _⟩ => ⟨S1x2000000, .i32⟩
  | .hbm, ⟨23, _⟩ => ⟨S2000000, .i32⟩
  | .hbm, ⟨24, _⟩ => ⟨S1x2000000, .i32⟩
  | .hbm, ⟨25, _⟩ => ⟨S2000000, .i32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x32, .bf16⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000x32, .bf16⟩
  | .hbm, ⟨44, _⟩ => ⟨S32x32, .f32⟩
  | .hbm, ⟨45, _⟩ => ⟨S32x32, .f32⟩
  | .hbm, ⟨46, _⟩ => ⟨S32x32, .f32⟩
  | .hbm, ⟨47, _⟩ => ⟨S1x32, .f32⟩
  | .hbm, ⟨48, _⟩ => ⟨S1x32, .f32⟩
  | .hbm, ⟨49, _⟩ => ⟨S2000000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .bf16⟩
  | .local _ .vmem, ⟨7, _⟩ => ⟨S10000x32, .bf16⟩
  | .local _ .vmem, ⟨8, _⟩ => ⟨S10000x32, .f32⟩
  | .local _ .vmem, ⟨9, _⟩ => ⟨S10000x32, .f32⟩
  | .local _ .vmem, ⟨10, _⟩ => ⟨S32x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S10000x32, .bf16⟩
  | .local _ .vmem, ⟨15, _⟩ => ⟨S10000x32, .bf16⟩
  | .local _ .vmem, ⟨16, _⟩ => ⟨S8000x32, .f32⟩
  | .local _ .vmem, ⟨17, _⟩ => ⟨S8000x32, .f32⟩
  | .local _ .vmem, ⟨18, _⟩ => ⟨S8000x32, .bf16⟩
  | .local _ .vmem, ⟨19, _⟩ => ⟨S8000x32, .bf16⟩
  | .local _ .vmem, ⟨20, _⟩ => ⟨S8000x32, .bf16⟩
  | .local _ .vmem, ⟨21, _⟩ => ⟨S8000x32, .bf16⟩
  | .local _ .vmem, ⟨22, _⟩ => ⟨S32x32, .f32⟩
  | .local _ .vmem, ⟨23, _⟩ => ⟨S32x32, .f32⟩
  | .local _ .vmem, ⟨24, _⟩ => ⟨S32x32, .f32⟩
  | .local _ .vmem, ⟨25, _⟩ => ⟨S1x32, .f32⟩
  | .local _ .vmem, ⟨26, _⟩ => ⟨S32x32, .f32⟩
  | .local _ .vmem, ⟨27, _⟩ => ⟨S1x32, .f32⟩
  | .local _ .vmem, ⟨28, _⟩ => ⟨S8000x32, .f32⟩
  | .local _ .vmem, ⟨29, _⟩ => ⟨S8000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  packedbf16_S10000x32_S10000x32_0_0 : (Rect.unit (s := S10000x32) ![0, 0] S10000x32.size inb_S10000x32_S10000x32_0_0).PackedRows (EltTy.packing .bf16)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S32x96_S32x32_0_0 : S32x96.Slices ![0, 0] S32x32
  slices_S32x96_S32x32_0_32 : S32x96.Slices ![0, 32] S32x32
  slices_S32x96_S32x32_0_64 : S32x96.Slices ![0, 64] S32x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  shapeCasts_S32x32_S32x32 : S32x32.ShapeCasts S32x32
  broadcasts_S1x32_S8000x32 : S1x32.Broadcasts S8000x32
  dot_S10000x32_S32x32_S10000x32_1_0_0_1_n_n_wf : DotDims.WF S10000x32 S32x32 S10000x32 [1] [0] [0] [1] [] []
  gather_S100000x32_S2000000x1_S2000000x32_1_0_n_n_0_1_132_wf : GatherDims.WF S100000x32 S2000000x1 S2000000x32 [1] [0] [] [0] [] 1 ![1, 32]
  dot_S8000x32_S32x32_S8000x32_1_0_0_1_n_n_wf : DotDims.WF S8000x32 S32x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .bf16 = 32 ∨ (Rect.block (s := S100000x32) S10000x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .bf16 = 32 ∨ (Rect.block (s := S100000x32) S10000x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S2000000x32.size a
  hwx2_0 : ∀ i : grid2.Coords, EltTy.bits .f32 = 32 ∨ (Rect.block (s := S2000000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S2000000x32.size a
  hwx2_1 : ∀ i : grid2.Coords, EltTy.bits .bf16 = 32 ∨ (Rect.block (s := S2000000x32) S8000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S2000000x32.size a
  hwx2_2 : ∀ i : grid2.Coords, EltTy.bits .bf16 = 32 ∨ (Rect.block (s := S2000000x32) S8000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x32.size a ≤ S2000000x32.size a
  hwx2_9 : ∀ i : grid2.Coords, EltTy.bits .f32 = 32 ∨ (Rect.block (s := S2000000x32) S8000x32.size (cc2_transform_9 i) (hinb2_9 i)).WholeWords (EltTy.packing .f32)

variable [Facts₀]

def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S8000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v28) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29) S8000x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x32 : Shape := ⟨2, ![100000, 32]⟩
abbrev S2000000x32 : Shape := ⟨2, ![2000000, 32]⟩
abbrev S2x2000000 : Shape := ⟨2, ![2, 2000000]⟩
abbrev S32x32 : Shape := ⟨2, ![32, 32]⟩
abbrev S32 : Shape := ⟨1, ![32]⟩
abbrev S32x96 : Shape := ⟨2, ![32, 96]⟩
abbrev S1x32 : Shape := ⟨2, ![1, 32]⟩
abbrev S_ : Shape := ⟨0, ![]⟩
abbrev S1x2000000 : Shape := ⟨2, ![1, 2000000]⟩
abbrev S2000000 : Shape := ⟨1, ![2000000]⟩
abbrev S2000000x1 : Shape := ⟨2, ![2000000, 1]⟩
abbrev S2000000x96 : Shape := ⟨2, ![2000000, 96]⟩
abbrev S96x32 : Shape := ⟨2, ![96, 32]⟩

abbrev nBuf : Space → Nat
  | .hbm => 84
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2000000x32, .f32⟩
  | .hbm, ⟨3, _⟩ => ⟨S2x2000000, .i32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x96, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S32x32, .f32⟩
  | .hbm, ⟨17, _⟩ => ⟨S100000x32, .f32⟩
  | .hbm, ⟨18, _⟩ => ⟨S1x32, .f32⟩
  | .hbm, ⟨19, _⟩ => ⟨S100000x32, .f32⟩
  | .hbm, ⟨20, _⟩ => ⟨S100000x32, .f32⟩
  | .hbm, ⟨21, _⟩ => ⟨S_, .f32⟩
  | .hbm, ⟨22, _⟩ => ⟨S100000x32, .f32⟩
  | .hbm, ⟨23, _⟩ => ⟨S100000x32, .f32⟩
  | .hbm, ⟨24, _⟩ => ⟨S32x32, .f32⟩
  | .hbm, ⟨25, _⟩ => ⟨S100000x32, .f32⟩
  | .hbm, ⟨26, _⟩ => ⟨S1x32, .f32⟩
  | .hbm, ⟨27, _⟩ => ⟨S100000x32, .f32⟩
  | .hbm, ⟨28, _⟩ => ⟨S100000x32, .f32⟩
  | .hbm, ⟨29, _⟩ => ⟨S_, .f32⟩
  | .hbm, ⟨30, _⟩ => ⟨S100000x32, .f32⟩
  | .hbm, ⟨31, _⟩ => ⟨S100000x32, .f32⟩
  | .hbm, ⟨32, _⟩ => ⟨S32x32, .f32⟩
  | .hbm, ⟨33, _⟩ => ⟨S100000x32, .f32⟩
  | .hbm, ⟨34, _⟩ => ⟨S1x32, .f32⟩
  | .hbm, ⟨35, _⟩ => ⟨S100000x32, .f32⟩
  | .hbm, ⟨36, _⟩ => ⟨S100000x32, .f32⟩
  | .hbm, ⟨37, _⟩ => ⟨S_, .f32⟩
  | .hbm, ⟨38, _⟩ => ⟨S100000x32, .f32⟩
  | .hbm, ⟨39, _⟩ => ⟨S100000x32, .f32⟩
  | .hbm, ⟨40, _⟩ => ⟨S32x32, .f32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x32, .f32⟩
  | .hbm, ⟨45, _⟩ => ⟨S_, .f32⟩
  | .hbm, ⟨46, _⟩ => ⟨S100000x32, .f32⟩
  | .hbm, ⟨47, _⟩ => ⟨S100000x32, .f32⟩
  | .hbm, ⟨48, _⟩ => ⟨S1x2000000, .i32⟩
  | .hbm, ⟨49, _⟩ => ⟨S2000000, .i32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000x32, .f32⟩
  | .hbm, ⟨59, _⟩ => ⟨S1x2000000, .i32⟩
  | .hbm, ⟨60, _⟩ => ⟨S2000000, .i32⟩
  | .hbm, ⟨61, _⟩ => ⟨S_, .i32⟩
  | .hbm, ⟨62, _⟩ => ⟨S2000000, .i32⟩
  | .hbm, ⟨63, _⟩ => ⟨S2000000, .i1⟩
  | .hbm, ⟨64, _⟩ => ⟨S_, .i32⟩
  | .hbm, ⟨65, _⟩ => ⟨S2000000, .i32⟩
  | .hbm, ⟨66, _⟩ => ⟨S2000000, .i32⟩
  | .hbm, ⟨67, _⟩ => ⟨S2000000, .i32⟩
  | .hbm, ⟨68, _⟩ => ⟨S2000000x1, .i32⟩
  | .hbm, ⟨69, _⟩ => ⟨S2000000x32, .f32⟩
  | .hbm, ⟨70, _⟩ => ⟨S2000000x96, .f32⟩
  | .hbm, ⟨71, _⟩ => ⟨S96x32, .f32⟩
  | .hbm, ⟨72, _⟩ => ⟨S2000000x32, .f32⟩
  | .hbm, ⟨73, _⟩ => ⟨S1x32, .f32⟩
  | .hbm, ⟨74, _⟩ => ⟨S2000000x32, .f32⟩
  | .hbm, ⟨75, _⟩ => ⟨S2000000x32, .f32⟩
  | .hbm, ⟨76, _⟩ => ⟨S_, .f32⟩
  | .hbm, ⟨77, _⟩ => ⟨S2000000x32, .f32⟩
  | .hbm, ⟨78, _⟩ => ⟨S2000000x32, .f32⟩
  | .hbm, ⟨79, _⟩ => ⟨S32x32, .f32⟩
  | .hbm, ⟨80, _⟩ => ⟨S2000000x32, .f32⟩
  | .hbm, ⟨81, _⟩ => ⟨S1x32, .f32⟩
  | .hbm, ⟨82, _⟩ => ⟨S2000000x32, .f32⟩
  | .hbm, ⟨83, _⟩ => ⟨S2000000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call3_cst : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_1 : Ref sig .tc := ⟨.hbm, 61, rfl⟩
abbrev main_v35 : Ref sig .tc := ⟨.hbm, 62, rfl⟩
abbrev main_v36 : Ref sig .tc := ⟨.hbm, 63, rfl⟩
abbrev main_c_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call4_cst : Ref sig .tc := ⟨.hbm, 76, rfl⟩
abbrev main_call4_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  transposes_S32x32_S32x32_1_0 : S32x32.Transposes [1, 0] S32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x32_S2000000x32_S2000000x32_S2000000x96_d1 : Shape.Concatenates [S2000000x32, S2000000x32, S2000000x32] S2000000x96 1
  transposes_S32x96_S96x32_1_0 : S32x96.Transposes [1, 0] S96x32
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  dot_S100000x32_S32x32_S100000x32_1_0_0_1_n_n_wf : DotDims.WF S100000x32 S32x32 S100000x32 [1] [0] [0] [1] [] []
  gather_S100000x32_S2000000x1_S2000000x32_1_0_n_n_0_1_132_wf : GatherDims.WF S100000x32 S2000000x1 S2000000x32 [1] [0] [] [0] [] 1 ![1, 32]
  dot_S2000000x96_S96x32_S2000000x32_1_0_0_1_n_n_wf : DotDims.WF S2000000x96 S96x32 S2000000x32 [1] [0] [0] [1] [] []
  dot_S2000000x32_S32x32_S2000000x32_1_0_0_1_n_n_wf : DotDims.WF S2000000x32 S32x32 S2000000x32 [1] [0] [0] [1] [] []

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def dot_S2000000x96_S96x32_S2000000x32_1_0_0_1_n_n : DotDims S2000000x96 S96x32 S2000000x32 where
  lhsContracting := [1]
  rhsContracting := [0]
  lhsNonContracting := [0]
  rhsNonContracting := [1]
  lhsBatch := []
  rhsBatch := []
  wf := dot_S2000000x96_S96x32_S2000000x32_1_0_0_1_n_n_wf
def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf

class Facts : Prop extends Facts₀ where

variable [Facts]
-- ==== Proof.KRun.lean ====
/-
  The kernel program's run with its result array named.

  The program is three kernel regions among stretches of host operations. Its run ends with every buffer the host can
  see at the contents of the last boundary of the fold through the program (the buffers after the third region's
  write-backs); read at the result buffer this names the result, and read at the argument buffers it gives the
  arguments back unchanged.
-/
import proofs.«112529_j979252543696_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer at the last boundary's
    contents and every argument buffer as launched. -/
theorem run_named : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Named

end
-- ==== Proof.Spec.lean ====
/-
  The edge update as plain functions of the argument arrays, one row at a time.

  Every row of every stage depends on ONE row of its input: a dense layer sends a row `v` to `j ↦ ∑ l, v l · W[j,l] + b j`;
  a node table is two dense layers, each followed by `max · 0`; an edge's output row is a dense layer of width 96 applied
  to the edge's own row followed by its two gathered node rows, `max · 0`, and a last dense layer. The width-96 layer is
  written here as the sum of three width-32 products, one per column block of its weight; that it equals the product with
  the joined row of length 96 is `sum_three_blocks`, associativity and commutativity of addition only, so it holds on the
  extended reals with no finiteness.
-/
import Idealize.ShloMosaic.PureOps.Ideal
import Idealize.ShloMosaic.Lib.ValueIdx

noncomputable section

open scoped BigOperators

namespace Cert.EdgeSpec

open Idealize.ShloMosaic Idealize.ShloMosaic.ValueIdx

/-- One dense layer on a row: `j ↦ ∑ l, v l · W[j,l] + b j`. -/
def linRow {k o : Nat} (v : Fin k → EReal) (W : (⟨2, ![o, k]⟩ : Shape).Idx → EReal) (b : Fin o → EReal) (j : Fin o) : EReal :=
  (∑ l : Fin k, v l * W (ix2 j l)) + b j

/-- A node's compressed row: two dense layers, each followed by `max · 0`. -/
def nodeRow (v : Fin 32 → EReal) (W1 : (⟨2, ![32, 32]⟩ : Shape).Idx → EReal) (b1 : Fin 32 → EReal)
    (W2 : (⟨2, ![32, 32]⟩ : Shape).Idx → EReal) (b2 : Fin 32 → EReal) (j : Fin 32) : EReal :=
  max (linRow (fun k => max (linRow v W1 b1 k) 0) W2 b2 j) 0

/-- An edge's output row from its own row `e` and its two gathered node rows `p`, `q`: the first layer as three
    width-32 products against the weight blocks `A`, `B`, `C`, then `max · 0`, then the last dense layer. -/
def edgeRow (e p q : Fin 32 → EReal) (A B C : (⟨2, ![32, 32]⟩ : Shape).Idx → EReal) (b1 : Fin 32 → EReal)
    (W2 : (⟨2, ![32, 32]⟩ : Shape).Idx → EReal) (b2 : Fin 32 → EReal) (j : Fin 32) : EReal :=
  linRow (fun k => max ((∑ l : Fin 32, e l * A (ix2 k l)) + (∑ l : Fin 32, p l * B (ix2 k l))
      + (∑ l : Fin 32, q l * C (ix2 k l)) + b1 k) 0) W2 b2 j

/-- The node table of an array of `n` rows. -/
def nodeArr {n : Nat} (x : (⟨2, ![n, 32]⟩ : Shape).Idx → EReal) (W1 : (⟨2, ![32, 32]⟩ : Shape).Idx → EReal) (b1 : Fin 32 → EReal)
    (W2 : (⟨2, ![32, 32]⟩ : Shape).Idx → EReal) (b2 : Fin 32 → EReal) : (⟨2, ![n, 32]⟩ : Shape).Idx → EReal :=
  fun i => nodeRow (fun l => x (ix2 (i 0) l)) W1 b1 W2 b2 (i 1)

/-- The edge output of arrays of `n` rows. -/
def edgeArr {n : Nat} (e p q : (⟨2, ![n, 32]⟩ : Shape).Idx → EReal) (A B C : (⟨2, ![32, 32]⟩ : Shape).Idx → EReal) (b1 : Fin 32 → EReal)
    (W2 : (⟨2, ![32, 32]⟩ : Shape).Idx → EReal) (b2 : Fin 32 → EReal) : (⟨2, ![n, 32]⟩ : Shape).Idx → EReal :=
  fun i => edgeRow (fun l => e (ix2 (i 0) l)) (fun l => p (ix2 (i 0) l)) (fun l => q (ix2 (i 0) l)) A B C b1 W2 b2 (i 1)

/-- Columns `o … o+31` of a 32 × 96 weight, as a 32 × 32 array. -/
def colBlock (o : Nat) (ho : o + 32 ≤ 96) (W : (⟨2, ![32, 96]⟩ : Shape).Idx → EReal) : (⟨2, ![32, 32]⟩ : Shape).Idx → EReal :=
  fun i => W (ix2 (i 0) (⟨o + (i 1).val, by have h : (i 1).val < 32 := idx2_lt1 i; omega⟩ : Fin 96))

/-- A rank-1 array of 32 entries as a function of its coordinate. -/
def vec32 (b : (⟨1, ![32]⟩ : Shape).Idx → EReal) : Fin 32 → EReal := fun k => b (ix1 k)

/-- The row `[1, 32]` form of the same. -/
def row32 (b : (⟨2, ![1, 32]⟩ : Shape).Idx → EReal) : Fin 32 → EReal := fun k => b (ix2 (0 : Fin 1) k)

/-- A sum over 96 positions is the sum over its three consecutive thirds. -/
theorem sum_three_blocks (f : Fin 96 → EReal) :
    ∑ s : Fin 96, f s = (∑ l : Fin 32, f ⟨l.val, by omega⟩) + (∑ l : Fin 32, f ⟨32 + l.val, by omega⟩)
      + ∑ l : Fin 32, f ⟨64 + l.val, by omega⟩ := by
  have h1 := Fin.sum_univ_add (M := EReal) (a := 64) (b := 32) (fun s : Fin (64 + 32) => f ⟨s.val, s.isLt⟩)
  have h2 := Fin.sum_univ_add (M := EReal) (a := 32) (b := 32) (fun s : Fin (32 + 32) => f ⟨s.val, by have := s.isLt; omega⟩)
  simp only [Fin.val_castAdd, Fin.val_natAdd] at h1 h2
  exact h1.trans (congrArg (· + _) h2)

/-- Both node layers read only the row they are given: equal rows give equal node rows. -/
theorem nodeArr_row {n n' : Nat} (x : (⟨2, ![n, 32]⟩ : Shape).Idx → EReal) (x' : (⟨2, ![n', 32]⟩ : Shape).Idx → EReal)
    (W1 : (⟨2, ![32, 32]⟩ : Shape).Idx → EReal) (b1 : Fin 32 → EReal) (W2 : (⟨2, ![32, 32]⟩ : Shape).Idx → EReal) (b2 : Fin 32 → EReal)
    (r : Fin n) (r' : Fin n') (j : Fin 32) (h : ∀ l : Fin 32, x (ix2 r l) = x' (ix2 r' l)) :
    nodeArr x W1 b1 W2 b2 (ix2 r j) = nodeArr x' W1 b1 W2 b2 (ix2 r' j) := by
  unfold nodeArr
  exact congrArg (fun v => nodeRow v W1 b1 W2 b2 j) (funext h)

end Cert.EdgeSpec

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.Payload.lean ====
/-
  The kernel bodies' arithmetic, read at one entry on the extended reals.

  Each body is a chain of dense layers. A layer multiplies its input array by the TRANSPOSE of its weight into a zero
  accumulator, adds the bias row broadcast over all rows, and (except the edge body's last layer) takes `max · 0`.
  At entry `(p, k)` the product is `∑ l, X[p,l] · Wᵀ[l,k] = ∑ l, X[p,l] · W[k,l]`, the broadcast row is `b[0,k]`, and
  the zero word is `0`: a layer at `(p, k)` is `max (∑ l, X[p,l] · W[k,l] + b[0,k]) 0`, which depends on row `p` of
  its input only. Narrowing a value to a shorter format is the identity on the extended reals, and a shape cast of a
  shape to itself is the identity. The node bodies are two such layers; the edge body's first layer is the sum of three
  products (one per weight block) before its bias, and its last layer has no `max`.
-/
import proofs.«112529_j979252543696_2_alg».proof.Proof.Gen.KernelIdeal.Skeleton
import proofs.«112529_j979252543696_2_alg».proof.Proof.Spec
import proofs.«112529_j979252543696_2_alg».proof.Proof.LibPlainMatmul
import Idealize.ShloMosaic.Lib.ValueLayout
import Idealize.ShloMosaic.Lib.Pipeline.Value

noncomputable section

open scoped BigOperators

namespace Cert.EdgeKernel

open Cert.KernelIdeal Cert.KernelIdeal.Gen Cert.EdgeSpec Idealize.ShloMosaic Idealize.ShloMosaic.ValueIdx

/-- The printed dimension record of the `10000 × 32` by `32 × 32` product is the plain one. -/
theorem dot10000_eq : dot_S10000x32_S32x32_S10000x32_1_0_0_1_n_n = DotDims.plain 10000 32 32 := rfl

/-- The printed dimension record of the `8000 × 32` by `32 × 32` product is the plain one. -/
theorem dot8000_eq : dot_S8000x32_S32x32_S8000x32_1_0_0_1_n_n = DotDims.plain 8000 32 32 := rfl

/-- The product of `A` by the transpose of `W` into the zero accumulator, at `(p, k)`: `∑ l, A[p,l] · W[k,l]`. -/
theorem mmT_apply {n : Nat} {φ φ' : FTy} (A : FVec Ideal ⟨2, ![n, 32]⟩ φ) (W : FVec Ideal ⟨2, ![32, 32]⟩ φ')
    (h : (⟨2, ![32, 32]⟩ : Shape).Transposes [1, 0] ⟨2, ![32, 32]⟩) (p : Fin n) (k : Fin 32) :
    FloatOps.matmul (DotDims.plain n 32 32) none A (transpose ⟨2, ![32, 32]⟩ [1, 0] W h)
        (constant ⟨2, ![n, 32]⟩ .f32 0x00000000#32) (ix2 p k)
      = ∑ l : Fin 32, A (ix2 p l) * W (ix2 k l) := by
  rw [PlainMatmul.matmul_zero_apply]
  refine Finset.sum_congr rfl fun l _ => ?_
  rw [transpose_ix2_apply]

/-- One dense layer followed by `max · 0`, at `(p, k)`. -/
theorem layer_apply {n : Nat} {φ φ' : FTy} (A : FVec Ideal ⟨2, ![n, 32]⟩ φ) (W : FVec Ideal ⟨2, ![32, 32]⟩ φ')
    (b : FVec Ideal ⟨2, ![1, 32]⟩ .f32) (ht : (⟨2, ![32, 32]⟩ : Shape).Transposes [1, 0] ⟨2, ![32, 32]⟩)
    (hs : (⟨2, ![1, 32]⟩ : Shape).ShapeCasts ⟨2, ![1, 32]⟩) (hb : (⟨2, ![1, 32]⟩ : Shape).Broadcasts ⟨2, ![n, 32]⟩)
    (p : Fin n) (k : Fin 32) :
    maximumf (addf (matmul (DotDims.plain n 32 32) none A (transpose ⟨2, ![32, 32]⟩ [1, 0] W ht)
          (constant ⟨2, ![n, 32]⟩ .f32 0x00000000#32))
        (broadcastTo ⟨2, ![n, 32]⟩ (shapeCast ⟨2, ![1, 32]⟩ b hs) hb))
      (broadcast ⟨2, ![n, 32]⟩ (Scalar.ofBits (F := Ideal) .f32 0x00000000#32)) (ix2 p k)
      = max ((∑ l : Fin 32, A (ix2 p l) * W (ix2 k l)) + b (ix2 (0 : Fin 1) k)) 0 := by
  show max (FloatOps.matmul (DotDims.plain n 32 32) none A (transpose ⟨2, ![32, 32]⟩ [1, 0] W ht)
          (constant ⟨2, ![n, 32]⟩ .f32 0x00000000#32) (ix2 p k)
        + broadcastTo ⟨2, ![n, 32]⟩ (shapeCast ⟨2, ![1, 32]⟩ b hs) hb (ix2 p k)) (Ideal.ofBits .f32 0x00000000#32) = _
  rw [mmT_apply, shapeCast_self, broadcastTo_1b_ab_apply, Ideal.ofBits_zero_f32]

/-- A bias row broadcast over all rows and added, at `(p, k)`. -/
theorem bias_apply {n : Nat} (X : FVec Ideal ⟨2, ![n, 32]⟩ .f32) (b : FVec Ideal ⟨2, ![1, 32]⟩ .f32)
    (hs : (⟨2, ![1, 32]⟩ : Shape).ShapeCasts ⟨2, ![1, 32]⟩) (hb : (⟨2, ![1, 32]⟩ : Shape).Broadcasts ⟨2, ![n, 32]⟩)
    (p : Fin n) (k : Fin 32) :
    addf X (broadcastTo ⟨2, ![n, 32]⟩ (shapeCast ⟨2, ![1, 32]⟩ b hs) hb) (ix2 p k) = X (ix2 p k) + b (ix2 (0 : Fin 1) k) := by
  show X (ix2 p k) + broadcastTo ⟨2, ![n, 32]⟩ (shapeCast ⟨2, ![1, 32]⟩ b hs) hb (ix2 p k) = _
  rw [shapeCast_self, broadcastTo_1b_ab_apply]

/-- `max` against the zero word broadcast, at an entry. -/
theorem relu_apply {s : Shape} (Y : FVec Ideal s .f32) (i : s.Idx) :
    maximumf Y (broadcast s (Scalar.ofBits (F := Ideal) .f32 0x00000000#32)) i = max (Y i) 0 := by
  show max (Y i) (Ideal.ofBits .f32 0x00000000#32) = _
  rw [Ideal.ofBits_zero_f32]

/-- The product of `A` by the transpose of a weight that went through a shape cast to its own shape and a narrowing,
    at `(p, k)`: `∑ l, A[p,l] · W[k,l]`. -/
theorem mmT_cast_apply {n : Nat} {φ : FTy} (A : FVec Ideal ⟨2, ![n, 32]⟩ φ) (W : FVec Ideal ⟨2, ![32, 32]⟩ .f32)
    (hs : (⟨2, ![32, 32]⟩ : Shape).ShapeCasts ⟨2, ![32, 32]⟩) (hlt : FTy.bits .bf16 < FTy.bits .f32)
    (h : (⟨2, ![32, 32]⟩ : Shape).Transposes [1, 0] ⟨2, ![32, 32]⟩) (p : Fin n) (k : Fin 32) :
    FloatOps.matmul (DotDims.plain n 32 32) none A
        (transpose ⟨2, ![32, 32]⟩ [1, 0] (truncf .bf16 (shapeCast ⟨2, ![32, 32]⟩ W hs) hlt) h)
        (constant ⟨2, ![n, 32]⟩ .f32 0x00000000#32) (ix2 p k)
      = ∑ l : Fin 32, A (ix2 p l) * W (ix2 k l) := by
  rw [mmT_apply, shapeCast_self]
  rfl

/-- The first node body at entry `(p, q)`: two dense layers, each followed by `max · 0`, of row `p`. -/
theorem node_pay0 (x0 : Vec Ideal S10000x32 .f32) (x1 : Vec Ideal S32x32 .f32) (x2 : Vec Ideal S1x32 .f32)
    (x3 : Vec Ideal S32x32 .f32) (x4 : Vec Ideal S1x32 .f32) (p : Fin 10000) (q : Fin 32) :
    k0_pay1 (F := Ideal) x0 x1 x2 x3 x4 (ix2 p q)
      = nodeRow (fun l => x0 (ix2 p l)) x1 (row32 x2) x3 (row32 x4) q := by
  unfold k0_pay1
  refine (layer_apply (n := 10000) _ _ x4 _ _ _ p q).trans ?_
  unfold nodeRow linRow row32
  refine congrArg (fun t => max (t + x4 (ix2 (0 : Fin 1) q)) 0) ?_
  refine Finset.sum_congr rfl fun k _ => ?_
  refine congrArg (fun t => t * x3 (ix2 q k)) ?_
  exact layer_apply (n := 10000) _ _ x2 _ _ _ p k

/-- The second node body (the same text) at entry `(p, q)`. -/
theorem node_pay1 (x0 : Vec Ideal S10000x32 .f32) (x1 : Vec Ideal S32x32 .f32) (x2 : Vec Ideal S1x32 .f32)
    (x3 : Vec Ideal S32x32 .f32) (x4 : Vec Ideal S1x32 .f32) (p : Fin 10000) (q : Fin 32) :
    k1_pay1 (F := Ideal) x0 x1 x2 x3 x4 (ix2 p q)
      = nodeRow (fun l => x0 (ix2 p l)) x1 (row32 x2) x3 (row32 x4) q := by
  unfold k1_pay1
  refine (layer_apply (n := 10000) _ _ x4 _ _ _ p q).trans ?_
  unfold nodeRow linRow row32
  refine congrArg (fun t => max (t + x4 (ix2 (0 : Fin 1) q)) 0) ?_
  refine Finset.sum_congr rfl fun k _ => ?_
  refine congrArg (fun t => t * x3 (ix2 q k)) ?_
  exact layer_apply (n := 10000) _ _ x2 _ _ _ p k

/-- The edge body at entry `(p, q)`: the first layer as three products of row `p` of the three inputs, `max · 0`,
    then the last dense layer. -/
theorem edge_pay (v0 : Vec Ideal S8000x32 .f32) (v2 v4 : Vec Ideal S8000x32 .bf16) (v6 v9 v12 : Vec Ideal S32x32 .f32)
    (v23 : Vec Ideal S1x32 .f32) (v30 : Vec Ideal S32x32 .f32) (v34 : Vec Ideal S1x32 .f32) (p : Fin 8000) (q : Fin 32) :
    k2_pay1 (F := Ideal) (k2_pay2 (F := Ideal) v0 v2 v4 v6 v9 v12 v23 v30) (k2_pay3 (F := Ideal) v34) (ix2 p q)
      = edgeRow (fun l => v0 (ix2 p l)) (fun l => v2 (ix2 p l)) (fun l => v4 (ix2 p l)) v6 v9 v12 (row32 v23) v30
          (row32 v34) q := by
  unfold k2_pay1 k2_pay2 k2_pay3
  rw [shapeCast_self v2, shapeCast_self v4]
  refine (bias_apply (n := 8000) _ v34 _ _ p q).trans ?_
  unfold edgeRow linRow row32
  refine congrArg (fun t => t + v34 (ix2 (0 : Fin 1) q)) ?_
  refine (mmT_apply (n := 8000) _ _ _ p q).trans ?_
  refine Finset.sum_congr rfl fun k _ => ?_
  refine congrArg (fun t => t * v30 (ix2 q k)) ?_
  refine (relu_apply _ (ix2 p k)).trans ?_
  refine congrArg (fun t => max t 0) ?_
  refine (bias_apply (n := 8000) _ v23 _ _ p k).trans ?_
  refine congrArg (fun t => t + v23 (ix2 (0 : Fin 1) k)) ?_
  refine congr (congrArg HAdd.hAdd (congr (congrArg HAdd.hAdd ?_) ?_)) ?_
  · exact mmT_cast_apply (n := 8000) _ v6 _ _ _ p k
  · exact mmT_cast_apply (n := 8000) _ v9 _ _ _ p k
  · exact mmT_cast_apply (n := 8000) _ v12 _ _ _ p k

end Cert.EdgeKernel

end
-- ==== Proof.Blocks0.lean ====
/-
  The first node table as one function of the arrays its region is entered with.
-/
import proofs.«112529_j979252543696_2_alg».proof.Proof.Gen.KernelIdeal.Frame
import proofs.«112529_j979252543696_2_alg».proof.Proof.Spec
import proofs.«112529_j979252543696_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.EdgeKernel

open Cert.KernelIdeal Cert.KernelIdeal.Gen Cert.EdgeSpec Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The block indices of region 0's windows at a point: the row-tiled windows sit at block row `t`, the others at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The payload at an entry of a block whose rows are rows of a larger array. -/
theorem node_block0 (x0 : Vec Ideal S10000x32 .f32) (x1 : Vec Ideal S32x32 .f32) (x2 : Vec Ideal S1x32 .f32) (x3 : Vec Ideal S32x32 .f32) (x4 : Vec Ideal S1x32 .f32)
    (X : Vec Ideal S100000x32 .f32) (j : S10000x32.Idx) (i : S100000x32.Idx)
    (h0 : ∀ l : Fin 32, x0 (ix2 (j 0) l) = X (ix2 (i 0) l)) (hc : i 1 = j 1) :
    k0_pay1 (F := Ideal) x0 x1 x2 x3 x4 j = nodeArr X x1 (row32 x2) x3 (row32 x4) i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  obtain rfl : s = q := hc
  rw [node_pay0]
  unfold nodeArr
  exact congrArg (fun v => nodeRow v x1 (row32 x2) x3 (row32 x4) s) (funext h0)

/-- The row-tiled input's block at point `t` is rows `10000 t … 10000 t + 9999` of its array. -/
theorem iblk0_rows (c : Dev nD) (t : Fin cfg0.N) (x : S10000x32.Idx) (k : S100000x32.Idx)
    (hk0 : (k 0).val = 10000 * t.val + (x 0).val) (hk1 : (k 1).val = (x 1).val) :
    (iblk0 V c 0 t : Vec Ideal S10000x32 .f32) x = (V c main_arg0 : S100000x32.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 32 + 1 * (x 1).val = (k 1).val; rw [e1, hk1]; omega

/-- The weights' and biases' windows hold their whole arrays at every point. -/
theorem iblk0_w1 (c : Dev nD) (t : Fin cfg0.N) : (iblk0 V c 1 t : Vec Ideal S32x32 .f32) = (V c main_arg4 : S32x32.Idx → EReal) := by
  obtain ⟨-, -, e0, e1, -⟩ := idx0 t
  funext x
  unfold iblk0
  rw [View.read_apply]
  show V c main_arg4 _ = V c main_arg4 _
  congr 1
  funext a
  apply Fin.ext
  match a with
  | ⟨0, _⟩ => show win0_1.index t 0 * 32 + 1 * (x 0).val = (x 0).val; rw [e0]; omega
  | ⟨1, _⟩ => show win0_1.index t 1 * 32 + 1 * (x 1).val = (x 1).val; rw [e1]; omega
theorem iblk0_w2 (c : Dev nD) (t : Fin cfg0.N) : (iblk0 V c 2 t : Vec Ideal S1x32 .f32) = (V c main_v0 : S1x32.Idx → EReal) := by
  obtain ⟨-, -, -, -, e0, e1, -⟩ := idx0 t
  funext x
  unfold iblk0
  rw [View.read_apply]
  show V c main_v0 _ = V c main_v0 _
  congr 1
  funext a
  apply Fin.ext
  match a with
  | ⟨0, _⟩ => show win0_2.index t 0 * 1 + 1 * (x 0).val = (x 0).val; rw [e0]; omega
  | ⟨1, _⟩ => show win0_2.index t 1 * 32 + 1 * (x 1).val = (x 1).val; rw [e1]; omega
theorem iblk0_w3 (c : Dev nD) (t : Fin cfg0.N) : (iblk0 V c 3 t : Vec Ideal S32x32 .f32) = (V c main_arg6 : S32x32.Idx → EReal) := by
  obtain ⟨-, -, -, -, -, -, e0, e1, -⟩ := idx0 t
  funext x
  unfold iblk0
  rw [View.read_apply]
  show V c main_arg6 _ = V c main_arg6 _
  congr 1
  funext a
  apply Fin.ext
  match a with
  | ⟨0, _⟩ => show win0_3.index t 0 * 32 + 1 * (x 0).val = (x 0).val; rw [e0]; omega
  | ⟨1, _⟩ => show win0_3.index t 1 * 32 + 1 * (x 1).val = (x 1).val; rw [e1]; omega
theorem iblk0_w4 (c : Dev nD) (t : Fin cfg0.N) : (iblk0 V c 4 t : Vec Ideal S1x32 .f32) = (V c main_v1 : S1x32.Idx → EReal) := by
  obtain ⟨-, -, -, -, -, -, -, -, e0, e1, -⟩ := idx0 t
  funext x
  unfold iblk0
  rw [View.read_apply]
  show V c main_v1 _ = V c main_v1 _
  congr 1
  funext a
  apply Fin.ext
  match a with
  | ⟨0, _⟩ => show win0_4.index t 0 * 1 + 1 * (x 0).val = (x 0).val; rw [e0]; omega
  | ⟨1, _⟩ => show win0_4.index t 1 * 32 + 1 * (x 1).val = (x 1).val; rw [e1]; omega

/-- The first node table, of the arrays region 0 is entered with. -/
def table0 (c : Dev nD) : S100000x32.Idx → EReal :=
  nodeArr (V c main_arg0 : S100000x32.Idx → EReal) (V c main_arg4 : S32x32.Idx → EReal) (row32 (V c main_v0 : S1x32.Idx → EReal))
    (V c main_arg6 : S32x32.Idx → EReal) (row32 (V c main_v1 : S1x32.Idx → EReal))

/-- What point `t` writes back is block `t` of the table. -/
theorem flushed0_eq (c : Dev nD) (t : Fin cfg0.N) :
    (dat0 V c).flushed 5 t = ((cfg0.win 5).blk t).view.read (Elt Ideal) (table0 V c) := by
  show (cfg0.win 5).cut (grid0.coords t) ((dat0 V c).after 5 t) = _
  rw [after0_5]
  unfold out0_5
  rw [View.canon_unit_zero hz0]
  simp only [View.ld_unit_zero (S := S10000x32) hz0, View.ld_unit_zero (S := S32x32) hz0, View.ld_unit_zero (S := S1x32) hz0]
  obtain ⟨-, -, -, -, -, -, -, -, -, -, e0, e1⟩ := idx0 t
  funext j
  show k0_pay1 (F := Ideal) (iblk0 V c 0 t) (iblk0 V c 1 t) (iblk0 V c 2 t) (iblk0 V c 3 t) (iblk0 V c 4 t) j = table0 V c (((cfg0.win 5).blk t).view.emb j)
  rw [iblk0_w1 V c t, iblk0_w2 V c t, iblk0_w3 V c t, iblk0_w4 V c t]
  unfold table0
  refine node_block0 (iblk0 V c 0 t) _ _ _ _ _ j _ (fun l => ?_) ?_
  · refine iblk0_rows V c t _ _ ?_ ?_
    · show win0_5.index t 0 * 10000 + 1 * (j 0).val = 10000 * t.val + (j 0).val; rw [e0]; omega
    · rfl
  · apply Fin.ext
    show win0_5.index t 1 * 32 + 1 * (j 1).val = (j 1).val; rw [e1]; omega

/-- An index of the table is in point `t`'s block iff each coordinate is in the block's range. -/
theorem mem_blk0 (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v2).slice (win0_5.rect t)).set ↔ _
  rw [View.set_slice_whole, Rect.mem_set_unit]
  exact Iff.rfl

/-- Every row of the table is in the block of the point `row / 10000`. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨-, -, -, -, -, -, -, -, -, -, e0, e1⟩ := idx0 t
  refine ⟨t, flush0_5 t, ?_⟩
  rw [mem_blk0]
  have ht : t.val = (i 0).val / 10000 := rfl
  intro a
  match a with
  | ⟨0, _⟩ => show win0_5.index t 0 * 10000 ≤ (i 0).val ∧ (i 0).val < win0_5.index t 0 * 10000 + 10000; rw [e0, ht]; omega
  | ⟨1, _⟩ => show win0_5.index t 1 * 32 ≤ (i 1).val ∧ (i 1).val < win0_5.index t 1 * 32 + 32; rw [e1]; omega

/-- Region 0's output array after its run is the table. -/
theorem final0 (c : Dev nD) : (dat0 V c).arrAt 5 cfg0.N = table0 V c :=
  (dat0 V c).arrAt_eq_of_cover 5 (table0 V c) (fun t _ => flushed0_eq V c t) (cover0)

end Cert.EdgeKernel

end
-- ==== Proof.Blocks1.lean ====
/-
  The second node table as one function of the arrays its region is entered with.
-/
import proofs.«112529_j979252543696_2_alg».proof.Proof.Gen.KernelIdeal.Frame
import proofs.«112529_j979252543696_2_alg».proof.Proof.Spec
import proofs.«112529_j979252543696_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.EdgeKernel

open Cert.KernelIdeal Cert.KernelIdeal.Gen Cert.EdgeSpec Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The block indices of region 1's windows at a point: the row-tiled windows sit at block row `t`, the others at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The payload at an entry of a block whose rows are rows of a larger array. -/
theorem node_block1 (x0 : Vec Ideal S10000x32 .f32) (x1 : Vec Ideal S32x32 .f32) (x2 : Vec Ideal S1x32 .f32) (x3 : Vec Ideal S32x32 .f32) (x4 : Vec Ideal S1x32 .f32)
    (X : Vec Ideal S100000x32 .f32) (j : S10000x32.Idx) (i : S100000x32.Idx)
    (h0 : ∀ l : Fin 32, x0 (ix2 (j 0) l) = X (ix2 (i 0) l)) (hc : i 1 = j 1) :
    k1_pay1 (F := Ideal) x0 x1 x2 x3 x4 j = nodeArr X x1 (row32 x2) x3 (row32 x4) i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  obtain rfl : s = q := hc
  rw [node_pay1]
  unfold nodeArr
  exact congrArg (fun v => nodeRow v x1 (row32 x2) x3 (row32 x4) s) (funext h0)

/-- The row-tiled input's block at point `t` is rows `10000 t … 10000 t + 9999` of its array. -/
theorem iblk1_rows (c : Dev nD) (t : Fin cfg1.N) (x : S10000x32.Idx) (k : S100000x32.Idx)
    (hk0 : (k 0).val = 10000 * t.val + (x 0).val) (hk1 : (k 1).val = (x 1).val) :
    (iblk1 V c 0 t : Vec Ideal S10000x32 .f32) x = (V c main_arg1 : S100000x32.Idx → EReal) k := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 10000 + 1 * (x 0).val = (k 0).val; rw [e0, hk0]; omega
  | ⟨1, _⟩ => show win1_0.index t 1 * 32 + 1 * (x 1).val = (k 1).val; rw [e1, hk1]; omega

/-- The weights' and biases' windows hold their whole arrays at every point. -/
theorem iblk1_w1 (c : Dev nD) (t : Fin cfg1.N) : (iblk1 V c 1 t : Vec Ideal S32x32 .f32) = (V c main_arg8 : S32x32.Idx → EReal) := by
  obtain ⟨-, -, e0, e1, -⟩ := idx1 t
  funext x
  unfold iblk1
  rw [View.read_apply]
  show V c main_arg8 _ = V c main_arg8 _
  congr 1
  funext a
  apply Fin.ext
  match a with
  | ⟨0, _⟩ => show win1_1.index t 0 * 32 + 1 * (x 0).val = (x 0).val; rw [e0]; omega
  | ⟨1, _⟩ => show win1_1.index t 1 * 32 + 1 * (x 1).val = (x 1).val; rw [e1]; omega
theorem iblk1_w2 (c : Dev nD) (t : Fin cfg1.N) : (iblk1 V c 2 t : Vec Ideal S1x32 .f32) = (V c main_v3 : S1x32.Idx → EReal) := by
  obtain ⟨-, -, -, -, e0, e1, -⟩ := idx1 t
  funext x
  unfold iblk1
  rw [View.read_apply]
  show V c main_v3 _ = V c main_v3 _
  congr 1
  funext a
  apply Fin.ext
  match a with
  | ⟨0, _⟩ => show win1_2.index t 0 * 1 + 1 * (x 0).val = (x 0).val; rw [e0]; omega
  | ⟨1, _⟩ => show win1_2.index t 1 * 32 + 1 * (x 1).val = (x 1).val; rw [e1]; omega
theorem iblk1_w3 (c : Dev nD) (t : Fin cfg1.N) : (iblk1 V c 3 t : Vec Ideal S32x32 .f32) = (V c main_arg10 : S32x32.Idx → EReal) := by
  obtain ⟨-, -, -, -, -, -, e0, e1, -⟩ := idx1 t
  funext x
  unfold iblk1
  rw [View.read_apply]
  show V c main_arg10 _ = V c main_arg10 _
  congr 1
  funext a
  apply Fin.ext
  match a with
  | ⟨0, _⟩ => show win1_3.index t 0 * 32 + 1 * (x 0).val = (x 0).val; rw [e0]; omega
  | ⟨1, _⟩ => show win1_3.index t 1 * 32 + 1 * (x 1).val = (x 1).val; rw [e1]; omega
theorem iblk1_w4 (c : Dev nD) (t : Fin cfg1.N) : (iblk1 V c 4 t : Vec Ideal S1x32 .f32) = (V c main_v4 : S1x32.Idx → EReal) := by
  obtain ⟨-, -, -, -, -, -, -, -, e0, e1, -⟩ := idx1 t
  funext x
  unfold iblk1
  rw [View.read_apply]
  show V c main_v4 _ = V c main_v4 _
  congr 1
  funext a
  apply Fin.ext
  match a with
  | ⟨0, _⟩ => show win1_4.index t 0 * 1 + 1 * (x 0).val = (x 0).val; rw [e0]; omega
  | ⟨1, _⟩ => show win1_4.index t 1 * 32 + 1 * (x 1).val = (x 1).val; rw [e1]; omega

/-- The second node table, of the arrays region 1 is entered with. -/
def table1 (c : Dev nD) : S100000x32.Idx → EReal :=
  nodeArr (V c main_arg1 : S100000x32.Idx → EReal) (V c main_arg8 : S32x32.Idx → EReal) (row32 (V c main_v3 : S1x32.Idx → EReal))
    (V c main_arg10 : S32x32.Idx → EReal) (row32 (V c main_v4 : S1x32.Idx → EReal))

/-- What point `t` writes back is block `t` of the table. -/
theorem flushed1_eq (c : Dev nD) (t : Fin cfg1.N) :
    (dat1 V c).flushed 5 t = ((cfg1.win 5).blk t).view.read (Elt Ideal) (table1 V c) := by
  show (cfg1.win 5).cut (grid1.coords t) ((dat1 V c).after 5 t) = _
  rw [after1_5]
  unfold out1_5
  rw [View.canon_unit_zero hz1]
  simp only [View.ld_unit_zero (S := S10000x32) hz1, View.ld_unit_zero (S := S32x32) hz1, View.ld_unit_zero (S := S1x32) hz1]
  obtain ⟨-, -, -, -, -, -, -, -, -, -, e0, e1⟩ := idx1 t
  funext j
  show k1_pay1 (F := Ideal) (iblk1 V c 0 t) (iblk1 V c 1 t) (iblk1 V c 2 t) (iblk1 V c 3 t) (iblk1 V c 4 t) j = table1 V c (((cfg1.win 5).blk t).view.emb j)
  rw [iblk1_w1 V c t, iblk1_w2 V c t, iblk1_w3 V c t, iblk1_w4 V c t]
  unfold table1
  refine node_block1 (iblk1 V c 0 t) _ _ _ _ _ j _ (fun l => ?_) ?_
  · refine iblk1_rows V c t _ _ ?_ ?_
    · show win1_5.index t 0 * 10000 + 1 * (j 0).val = 10000 * t.val + (j 0).val; rw [e0]; omega
    · rfl
  · apply Fin.ext
    show win1_5.index t 1 * 32 + 1 * (j 1).val = (j 1).val; rw [e1]; omega

/-- An index of the table is in point `t`'s block iff each coordinate is in the block's range. -/
theorem mem_blk1 (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v5).slice (win1_5.rect t)).set ↔ _
  rw [View.set_slice_whole, Rect.mem_set_unit]
  exact Iff.rfl

/-- Every row of the table is in the block of the point `row / 10000`. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨-, -, -, -, -, -, -, -, -, -, e0, e1⟩ := idx1 t
  refine ⟨t, flush1_5 t, ?_⟩
  rw [mem_blk1]
  have ht : t.val = (i 0).val / 10000 := rfl
  intro a
  match a with
  | ⟨0, _⟩ => show win1_5.index t 0 * 10000 ≤ (i 0).val ∧ (i 0).val < win1_5.index t 0 * 10000 + 10000; rw [e0, ht]; omega
  | ⟨1, _⟩ => show win1_5.index t 1 * 32 ≤ (i 1).val ∧ (i 1).val < win1_5.index t 1 * 32 + 32; rw [e1]; omega

/-- Region 1's output array after its run is the table. -/
theorem final1 (c : Dev nD) : (dat1 V c).arrAt 5 cfg1.N = table1 V c :=
  (dat1 V c).arrAt_eq_of_cover 5 (table1 V c) (fun t _ => flushed1_eq V c t) (cover1)

end Cert.EdgeKernel

end
-- ==== Proof.Blocks2.lean ====
/-
  The edge output as one function of the arrays its region is entered with.
-/
import proofs.«112529_j979252543696_2_alg».proof.Proof.Gen.KernelIdeal.Frame
import proofs.«112529_j979252543696_2_alg».proof.Proof.Spec
import proofs.«112529_j979252543696_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.EdgeKernel

open Cert.KernelIdeal Cert.KernelIdeal.Gen Cert.EdgeSpec Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The block indices of the edge region's windows at a point: the row-tiled windows sit at block row `t`, the others at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The payload at an entry of blocks whose rows are rows of larger arrays. -/
theorem edge_block (v0 : Vec Ideal S8000x32 .f32) (v2 v4 : Vec Ideal S8000x32 .bf16) (v6 v9 v12 : Vec Ideal S32x32 .f32) (v23 : Vec Ideal S1x32 .f32) (v30 : Vec Ideal S32x32 .f32) (v34 : Vec Ideal S1x32 .f32)
    (E P Q : S2000000x32.Idx → EReal) (j : S8000x32.Idx) (i : S2000000x32.Idx)
    (h0 : ∀ l : Fin 32, v0 (ix2 (j 0) l) = E (ix2 (i 0) l)) (h1 : ∀ l : Fin 32, v2 (ix2 (j 0) l) = P (ix2 (i 0) l)) (h2 : ∀ l : Fin 32, v4 (ix2 (j 0) l) = Q (ix2 (i 0) l)) (hc : i 1 = j 1) :
    k2_pay1 (F := Ideal) (k2_pay2 (F := Ideal) v0 v2 v4 v6 v9 v12 v23 v30) (k2_pay3 (F := Ideal) v34) j
      = edgeArr E P Q v6 v9 v12 (row32 v23) v30 (row32 v34) i := by
  obtain ⟨p, q, rfl⟩ : ∃ (p : Fin 8000) (q : Fin 32), j = ix2 p q := ⟨j 0, j 1, eq_ix2 j⟩
  obtain ⟨r, s, rfl⟩ : ∃ (r : Fin 2000000) (s : Fin 32), i = ix2 r s := ⟨i 0, i 1, eq_ix2 i⟩
  obtain rfl : s = q := hc
  rw [edge_pay]
  unfold edgeArr
  have e0 : (fun l : Fin 32 => v0 (ix2 p l)) = fun l => E (ix2 r l) := funext h0
  have e1 : (fun l : Fin 32 => v2 (ix2 p l)) = fun l => P (ix2 r l) := funext h1
  have e2 : (fun l : Fin 32 => v4 (ix2 p l)) = fun l => Q (ix2 r l) := funext h2
  show edgeRow (fun l => v0 (ix2 p l)) (fun l => v2 (ix2 p l)) (fun l => v4 (ix2 p l)) v6 v9 v12 (row32 v23) v30 (row32 v34) s
    = edgeRow (fun l => E (ix2 r l)) (fun l => P (ix2 r l)) (fun l => Q (ix2 r l)) v6 v9 v12 (row32 v23) v30 (row32 v34) s
  rw [e0, e1, e2]

/-- Row-tiled input 0's block at point `t` is rows `8000 t … 8000 t + 7999` of its array. -/
theorem iblk2_rows0 (c : Dev nD) (t : Fin cfg2.N) (x : S8000x32.Idx) (k : S2000000x32.Idx)
    (hk0 : (k 0).val = 8000 * t.val + (x 0).val) (hk1 : (k 1).val = (x 1).val) :
    (iblk2 V c 0 t : Vec Ideal S8000x32 .f32) x = (V c main_arg2 : S2000000x32.Idx → EReal) k := by
  obtain ⟨e0, e1, -⟩ := idx2 t
  unfold iblk2
  rw [View.read_apply]
  show V c main_arg2 _ = V c main_arg2 _
  congr 1
  funext a
  apply Fin.ext
  match a with
  | ⟨0, _⟩ => show win2_0.index t 0 * 8000 + 1 * (x 0).val = (k 0).val; rw [e0, hk0]; omega
  | ⟨1, _⟩ => show win2_0.index t 1 * 32 + 1 * (x 1).val = (k 1).val; rw [e1, hk1]; omega

/-- Row-tiled input 1's block at point `t` is rows `8000 t … 8000 t + 7999` of its array. -/
theorem iblk2_rows1 (c : Dev nD) (t : Fin cfg2.N) (x : S8000x32.Idx) (k : S2000000x32.Idx)
    (hk0 : (k 0).val = 8000 * t.val + (x 0).val) (hk1 : (k 1).val = (x 1).val) :
    (iblk2 V c 1 t : Vec Ideal S8000x32 .bf16) x = (V c main_v16 : S2000000x32.Idx → EReal) k := by
  obtain ⟨-, -, e0, e1, -⟩ := idx2 t
  unfold iblk2
  rw [View.read_apply]
  show V c main_v16 _ = V c main_v16 _
  congr 1
  funext a
  apply Fin.ext
  match a with
  | ⟨0, _⟩ => show win2_1.index t 0 * 8000 + 1 * (x 0).val = (k 0).val; rw [e0, hk0]; omega
  | ⟨1, _⟩ => show win2_1.index t 1 * 32 + 1 * (x 1).val = (k 1).val; rw [e1, hk1]; omega

/-- Row-tiled input 2's block at point `t` is rows `8000 t … 8000 t + 7999` of its array. -/
theorem iblk2_rows2 (c : Dev nD) (t : Fin cfg2.N) (x : S8000x32.Idx) (k : S2000000x32.Idx)
    (hk0 : (k 0).val = 8000 * t.val + (x 0).val) (hk1 : (k 1).val = (x 1).val) :
    (iblk2 V c 2 t : Vec Ideal S8000x32 .bf16) x = (V c main_v23 : S2000000x32.Idx → EReal) k := by
  obtain ⟨-, -, -, -, e0, e1, -⟩ := idx2 t
  unfold iblk2
  rw [View.read_apply]
  show V c main_v23 _ = V c main_v23 _
  congr 1
  funext a
  apply Fin.ext
  match a with
  | ⟨0, _⟩ => show win2_2.index t 0 * 8000 + 1 * (x 0).val = (k 0).val; rw [e0, hk0]; omega
  | ⟨1, _⟩ => show win2_2.index t 1 * 32 + 1 * (x 1).val = (k 1).val; rw [e1, hk1]; omega

/-- The weights' and biases' windows hold their whole arrays at every point. -/
theorem iblk2_w3 (c : Dev nD) (t : Fin cfg2.N) : (iblk2 V c 3 t : Vec Ideal S32x32 .f32) = (V c main_v24 : S32x32.Idx → EReal) := by
  obtain ⟨-, -, -, -, -, -, e0, e1, -⟩ := idx2 t
  funext x
  unfold iblk2
  rw [View.read_apply]
  show V c main_v24 _ = V c main_v24 _
  congr 1
  funext a
  apply Fin.ext
  match a with
  | ⟨0, _⟩ => show win2_3.index t 0 * 32 + 1 * (x 0).val = (x 0).val; rw [e0]; omega
  | ⟨1, _⟩ => show win2_3.index t 1 * 32 + 1 * (x 1).val = (x 1).val; rw [e1]; omega

theorem iblk2_w4 (c : Dev nD) (t : Fin cfg2.N) : (iblk2 V c 4 t : Vec Ideal S32x32 .f32) = (V c main_v25 : S32x32.Idx → EReal) := by
  obtain ⟨-, -, -, -, -, -, -, -, e0, e1, -⟩ := idx2 t
  funext x
  unfold iblk2
  rw [View.read_apply]
  show V c main_v25 _ = V c main_v25 _
  congr 1
  funext a
  apply Fin.ext
  match a with
  | ⟨0, _⟩ => show win2_4.index t 0 * 32 + 1 * (x 0).val = (x 0).val; rw [e0]; omega
  | ⟨1, _⟩ => show win2_4.index t 1 * 32 + 1 * (x 1).val = (x 1).val; rw [e1]; omega

theorem iblk2_w5 (c : Dev nD) (t : Fin cfg2.N) : (iblk2 V c 5 t : Vec Ideal S32x32 .f32) = (V c main_v26 : S32x32.Idx → EReal) := by
  obtain ⟨-, -, -, -, -, -, -, -, -, -, e0, e1, -⟩ := idx2 t
  funext x
  unfold iblk2
  rw [View.read_apply]
  show V c main_v26 _ = V c main_v26 _
  congr 1
  funext a
  apply Fin.ext
  match a with
  | ⟨0, _⟩ => show win2_5.index t 0 * 32 + 1 * (x 0).val = (x 0).val; rw [e0]; omega
  | ⟨1, _⟩ => show win2_5.index t 1 * 32 + 1 * (x 1).val = (x 1).val; rw [e1]; omega

theorem iblk2_w6 (c : Dev nD) (t : Fin cfg2.N) : (iblk2 V c 6 t : Vec Ideal S1x32 .f32) = (V c main_v27 : S1x32.Idx → EReal) := by
  obtain ⟨-, -, -, -, -, -, -, -, -, -, -, -, e0, e1, -⟩ := idx2 t
  funext x
  unfold iblk2
  rw [View.read_apply]
  show V c main_v27 _ = V c main_v27 _
  congr 1
  funext a
  apply Fin.ext
  match a with
  | ⟨0, _⟩ => show win2_6.index t 0 * 1 + 1 * (x 0).val = (x 0).val; rw [e0]; omega
  | ⟨1, _⟩ => show win2_6.index t 1 * 32 + 1 * (x 1).val = (x 1).val; rw [e1]; omega

theorem iblk2_w7 (c : Dev nD) (t : Fin cfg2.N) : (iblk2 V c 7 t : Vec Ideal S32x32 .f32) = (V c main_arg14 : S32x32.Idx → EReal) := by
  obtain ⟨-, -, -, -, -, -, -, -, -, -, -, -, -, -, e0, e1, -⟩ := idx2 t
  funext x
  unfold iblk2
  rw [View.read_apply]
  show V c main_arg14 _ = V c main_arg14 _
  congr 1
  funext a
  apply Fin.ext
  match a with
  | ⟨0, _⟩ => show win2_7.index t 0 * 32 + 1 * (x 0).val = (x 0).val; rw [e0]; omega
  | ⟨1, _⟩ => show win2_7.index t 1 * 32 + 1 * (x 1).val = (x 1).val; rw [e1]; omega

theorem iblk2_w8 (c : Dev nD) (t : Fin cfg2.N) : (iblk2 V c 8 t : Vec Ideal S1x32 .f32) = (V c main_v28 : S1x32.Idx → EReal) := by
  obtain ⟨-, -, -, -, -, -, -, -, -, -, -, -, -, -, -, -, e0, e1, -⟩ := idx2 t
  funext x
  unfold iblk2
  rw [View.read_apply]
  show V c main_v28 _ = V c main_v28 _
  congr 1
  funext a
  apply Fin.ext
  match a with
  | ⟨0, _⟩ => show win2_8.index t 0 * 1 + 1 * (x 0).val = (x 0).val; rw [e0]; omega
  | ⟨1, _⟩ => show win2_8.index t 1 * 32 + 1 * (x 1).val = (x 1).val; rw [e1]; omega

/-- The edge output, of the arrays the edge region is entered with. -/
def table2 (c : Dev nD) : S2000000x32.Idx → EReal :=
  edgeArr (V c main_arg2 : S2000000x32.Idx → EReal) (V c main_v16 : S2000000x32.Idx → EReal) (V c main_v23 : S2000000x32.Idx → EReal)
    (V c main_v24 : S32x32.Idx → EReal) (V c main_v25 : S32x32.Idx → EReal) (V c main_v26 : S32x32.Idx → EReal) (row32 (V c main_v27 : S1x32.Idx → EReal))
    (V c main_arg14 : S32x32.Idx → EReal) (row32 (V c main_v28 : S1x32.Idx → EReal))

/-- What point `t` writes back is block `t` of the edge output. -/
theorem flushed2_eq (c : Dev nD) (t : Fin cfg2.N) :
    (dat2 V c).flushed 9 t = ((cfg2.win 9).blk t).view.read (Elt Ideal) (table2 V c) := by
  show (cfg2.win 9).cut (grid2.coords t) ((dat2 V c).after 9 t) = _
  rw [after2_9]
  unfold out2_9
  rw [View.canon_unit_zero hz2]
  simp only [View.ld_unit_zero (S := S8000x32) hz2, View.ld_unit_zero (S := S32x32) hz2, View.ld_unit_zero (S := S1x32) hz2]
  obtain ⟨-, -, -, -, -, -, -, -, -, -, -, -, -, -, -, -, -, -, e0, e1⟩ := idx2 t
  funext j
  show k2_pay1 (F := Ideal) (k2_pay2 (F := Ideal) (iblk2 V c 0 t) (iblk2 V c 1 t) (iblk2 V c 2 t) (iblk2 V c 3 t) (iblk2 V c 4 t) (iblk2 V c 5 t) (iblk2 V c 6 t) (iblk2 V c 7 t)) (k2_pay3 (F := Ideal) (iblk2 V c 8 t)) j
    = table2 V c (((cfg2.win 9).blk t).view.emb j)
  rw [iblk2_w3 V c t, iblk2_w4 V c t, iblk2_w5 V c t, iblk2_w6 V c t, iblk2_w7 V c t, iblk2_w8 V c t]
  unfold table2
  have hr : ((((cfg2.win 9).blk t).view.emb j) 0).val = 8000 * t.val + (j 0).val := by
    show win2_9.index t 0 * 8000 + 1 * (j 0).val = 8000 * t.val + (j 0).val; rw [e0]; omega
  refine edge_block (iblk2 V c 0 t) (iblk2 V c 1 t) (iblk2 V c 2 t) _ _ _ _ _ _ _ _ _ j _ (fun l => ?_) (fun l => ?_) (fun l => ?_) ?_
  · exact iblk2_rows0 V c t _ _ hr rfl
  · exact iblk2_rows1 V c t _ _ hr rfl
  · exact iblk2_rows2 V c t _ _ hr rfl
  · apply Fin.ext
    show win2_9.index t 1 * 32 + 1 * (j 1).val = (j 1).val; rw [e1]; omega

/-- An index of the edge output is in point `t`'s block iff each coordinate is in the block's range. -/
theorem mem_blk2 (t : Fin cfg2.N) (i : S2000000x32.Idx) :
    i ∈ ((cfg2.win 9).blk t).view.set ↔ ∀ a : Fin 2, win2_9.index t a * S8000x32.size a ≤ (i a).val ∧ (i a).val < win2_9.index t a * S8000x32.size a + S8000x32.size a := by
  show i ∈ ((View.whole main_v29).slice (win2_9.rect t)).set ↔ _
  rw [View.set_slice_whole, Rect.mem_set_unit]
  exact Iff.rfl

/-- Every row of the edge output is in the block of the point `row / 8000`. -/
theorem cover2 (i : S2000000x32.Idx) : ∃ t : Fin cfg2.N, (cfg2.win 9).flush t = true ∧ i ∈ ((cfg2.win 9).blk t).view.set := by
  have hi0 : (i 0).val < 2000000 := (i 0).isLt
  have hi1 : (i 1).val < 32 := (i 1).isLt
  have hN : cfg2.N = 250 := N_2
  let t : Fin cfg2.N := ⟨(i 0).val / 8000, by rw [hN]; omega⟩
  obtain ⟨-, -, -, -, -, -, -, -, -, -, -, -, -, -, -, -, -, -, e0, e1⟩ := idx2 t
  refine ⟨t, flush2_9 t, ?_⟩
  rw [mem_blk2]
  have ht : t.val = (i 0).val / 8000 := rfl
  intro a
  match a with
  | ⟨0, _⟩ => show win2_9.index t 0 * 8000 ≤ (i 0).val ∧ (i 0).val < win2_9.index t 0 * 8000 + 8000; rw [e0, ht]; omega
  | ⟨1, _⟩ => show win2_9.index t 1 * 32 ≤ (i 1).val ∧ (i 1).val < win2_9.index t 1 * 32 + 32; rw [e1]; omega

/-- The edge region's output array after its run is the edge output. -/
theorem final2 (c : Dev nD) : (dat2 V c).arrAt 9 cfg2.N = table2 V c :=
  (dat2 V c).arrAt_eq_of_cover 9 (table2 V c) (fun t _ => flushed2_eq V c t) (cover2)

end Cert.EdgeKernel

end
-- ==== Proof.Chain.lean ====
/-
  The kernel program's result as one function of its arguments.

  The run's last boundary holds, at the result buffer, the edge region's output; each array that region is entered with
  is a host operation's value of earlier buffers, and so on back to the launch memory: an argument no operation and no
  region writes is still the launched array; a bias row is an argument reshaped to one row; a weight block is a column
  slice of the first edge weight; a gathered table is the host's gather of a node region's output at the normalised
  indices (a negative index moved up by the table's length). Put together, the result is the edge output of the
  specification at the launch arrays.
-/
import proofs.«112529_j979252543696_2_alg».proof.Proof.Gen.KernelIdeal.Frame
import proofs.«112529_j979252543696_2_alg».proof.Proof.Spec
import proofs.«112529_j979252543696_2_alg».proof.Proof.Blocks0
import proofs.«112529_j979252543696_2_alg».proof.Proof.Blocks1
import proofs.«112529_j979252543696_2_alg».proof.Proof.Blocks2
import Idealize.ShloMosaic.PureOps.Ideal
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.StableHlo

namespace Cert.EdgeKernel

open Cert.KernelIdeal Cert.KernelIdeal.Gen Cert.EdgeSpec Idealize.ShloMosaic.ValueIdx

variable (m : (ℓ : Loc nD τ sig) → Buf (Elt Ideal) ℓ) (ρ : Dev nD → PrngReg)

/-- A buffer that no operation of a host stretch writes holds after the stretch what it held before. -/
local macro "host_skip" x:term : tactic => `(tactic| exact StableHlo.after_of_forall_not_mem (b := Proc.devRef .tc $x) _ _ (List.forall_iff_forall_mem.mp (by
  simp only [hostOps0, hostOps1, hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (by decide))))

/-! ## The arguments at each boundary -/

theorem W0_main_arg0 (c : Dev nD) : W0 m ρ c (Proc.devRef .tc main_arg0) = (m ((c : Thread nD τ).loc main_arg0)) := rfl
theorem W0_main_arg4 (c : Dev nD) : W0 m ρ c (Proc.devRef .tc main_arg4) = (m ((c : Thread nD τ).loc main_arg4)) := rfl
theorem W0_main_arg5 (c : Dev nD) : W0 m ρ c (Proc.devRef .tc main_arg5) = (m ((c : Thread nD τ).loc main_arg5)) := rfl
theorem W0_main_arg6 (c : Dev nD) : W0 m ρ c (Proc.devRef .tc main_arg6) = (m ((c : Thread nD τ).loc main_arg6)) := rfl
theorem W0_main_arg7 (c : Dev nD) : W0 m ρ c (Proc.devRef .tc main_arg7) = (m ((c : Thread nD τ).loc main_arg7)) := rfl
theorem W1_main_arg0 (c : Dev nD) : W1 m ρ c (Proc.devRef .tc main_arg0) = (m ((c : Thread nD τ).loc main_arg0)) :=
  (by host_skip main_arg0 : W1 m ρ c (Proc.devRef .tc main_arg0) = W0 m ρ c (Proc.devRef .tc main_arg0)).trans rfl
theorem W1_main_arg4 (c : Dev nD) : W1 m ρ c (Proc.devRef .tc main_arg4) = (m ((c : Thread nD τ).loc main_arg4)) :=
  (by host_skip main_arg4 : W1 m ρ c (Proc.devRef .tc main_arg4) = W0 m ρ c (Proc.devRef .tc main_arg4)).trans rfl
theorem W1_main_arg6 (c : Dev nD) : W1 m ρ c (Proc.devRef .tc main_arg6) = (m ((c : Thread nD τ).loc main_arg6)) :=
  (by host_skip main_arg6 : W1 m ρ c (Proc.devRef .tc main_arg6) = W0 m ρ c (Proc.devRef .tc main_arg6)).trans rfl
theorem W2_main_arg1 (c : Dev nD) : W2 m ρ c (Proc.devRef .tc main_arg1) = (m ((c : Thread nD τ).loc main_arg1)) :=
  calc W2 m ρ c (Proc.devRef .tc main_arg1)
    _ = W1 m ρ c (Proc.devRef .tc main_arg1) := W2_of_ne m ρ c main_arg1 (by decide)
    _ = W0 m ρ c (Proc.devRef .tc main_arg1) := by host_skip main_arg1
    _ = (m ((c : Thread nD τ).loc main_arg1)) := rfl
theorem W2_main_arg8 (c : Dev nD) : W2 m ρ c (Proc.devRef .tc main_arg8) = (m ((c : Thread nD τ).loc main_arg8)) :=
  calc W2 m ρ c (Proc.devRef .tc main_arg8)
    _ = W1 m ρ c (Proc.devRef .tc main_arg8) := W2_of_ne m ρ c main_arg8 (by decide)
    _ = W0 m ρ c (Proc.devRef .tc main_arg8) := by host_skip main_arg8
    _ = (m ((c : Thread nD τ).loc main_arg8)) := rfl
theorem W2_main_arg9 (c : Dev nD) : W2 m ρ c (Proc.devRef .tc main_arg9) = (m ((c : Thread nD τ).loc main_arg9)) :=
  calc W2 m ρ c (Proc.devRef .tc main_arg9)
    _ = W1 m ρ c (Proc.devRef .tc main_arg9) := W2_of_ne m ρ c main_arg9 (by decide)
    _ = W0 m ρ c (Proc.devRef .tc main_arg9) := by host_skip main_arg9
    _ = (m ((c : Thread nD τ).loc main_arg9)) := rfl
theorem W2_main_arg10 (c : Dev nD) : W2 m ρ c (Proc.devRef .tc main_arg10) = (m ((c : Thread nD τ).loc main_arg10)) :=
  calc W2 m ρ c (Proc.devRef .tc main_arg10)
    _ = W1 m ρ c (Proc.devRef .tc main_arg10) := W2_of_ne m ρ c main_arg10 (by decide)
    _ = W0 m ρ c (Proc.devRef .tc main_arg10) := by host_skip main_arg10
    _ = (m ((c : Thread nD τ).loc main_arg10)) := rfl
theorem W2_main_arg11 (c : Dev nD) : W2 m ρ c (Proc.devRef .tc main_arg11) = (m ((c : Thread nD τ).loc main_arg11)) :=
  calc W2 m ρ c (Proc.devRef .tc main_arg11)
    _ = W1 m ρ c (Proc.devRef .tc main_arg11) := W2_of_ne m ρ c main_arg11 (by decide)
    _ = W0 m ρ c (Proc.devRef .tc main_arg11) := by host_skip main_arg11
    _ = (m ((c : Thread nD τ).loc main_arg11)) := rfl
theorem W2_main_arg2 (c : Dev nD) : W2 m ρ c (Proc.devRef .tc main_arg2) = (m ((c : Thread nD τ).loc main_arg2)) :=
  calc W2 m ρ c (Proc.devRef .tc main_arg2)
    _ = W1 m ρ c (Proc.devRef .tc main_arg2) := W2_of_ne m ρ c main_arg2 (by decide)
    _ = W0 m ρ c (Proc.devRef .tc main_arg2) := by host_skip main_arg2
    _ = (m ((c : Thread nD τ).loc main_arg2)) := rfl
theorem W2_main_arg3 (c : Dev nD) : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := by host_skip main_arg3
    _ = (m ((c : Thread nD τ).loc main_arg3)) := rfl
theorem W2_main_arg12 (c : Dev nD) : W2 m ρ c (Proc.devRef .tc main_arg12) = (m ((c : Thread nD τ).loc main_arg12)) :=
  calc W2 m ρ c (Proc.devRef .tc main_arg12)
    _ = W1 m ρ c (Proc.devRef .tc main_arg12) := W2_of_ne m ρ c main_arg12 (by decide)
    _ = W0 m ρ c (Proc.devRef .tc main_arg12) := by host_skip main_arg12
    _ = (m ((c : Thread nD τ).loc main_arg12)) := rfl
theorem W2_main_arg13 (c : Dev nD) : W2 m ρ c (Proc.devRef .tc main_arg13) = (m ((c : Thread nD τ).loc main_arg13)) :=
  calc W2 m ρ c (Proc.devRef .tc main_arg13)
    _ = W1 m ρ c (Proc.devRef .tc main_arg13) := W2_of_ne m ρ c main_arg13 (by decide)
    _ = W0 m ρ c (Proc.devRef .tc main_arg13) := by host_skip main_arg13
    _ = (m ((c : Thread nD τ).loc main_arg13)) := rfl
theorem W2_main_arg14 (c : Dev nD) : W2 m ρ c (Proc.devRef .tc main_arg14) = (m ((c : Thread nD τ).loc main_arg14)) :=
  calc W2 m ρ c (Proc.devRef .tc main_arg14)
    _ = W1 m ρ c (Proc.devRef .tc main_arg14) := W2_of_ne m ρ c main_arg14 (by decide)
    _ = W0 m ρ c (Proc.devRef .tc main_arg14) := by host_skip main_arg14
    _ = (m ((c : Thread nD τ).loc main_arg14)) := rfl
theorem W2_main_arg15 (c : Dev nD) : W2 m ρ c (Proc.devRef .tc main_arg15) = (m ((c : Thread nD τ).loc main_arg15)) :=
  calc W2 m ρ c (Proc.devRef .tc main_arg15)
    _ = W1 m ρ c (Proc.devRef .tc main_arg15) := W2_of_ne m ρ c main_arg15 (by decide)
    _ = W0 m ρ c (Proc.devRef .tc main_arg15) := by host_skip main_arg15
    _ = (m ((c : Thread nD τ).loc main_arg15)) := rfl
theorem W3_main_arg1 (c : Dev nD) : W3 m ρ c (Proc.devRef .tc main_arg1) = (m ((c : Thread nD τ).loc main_arg1)) :=
  (by host_skip main_arg1 : W3 m ρ c (Proc.devRef .tc main_arg1) = W2 m ρ c (Proc.devRef .tc main_arg1)).trans (W2_main_arg1 m ρ c)
theorem W3_main_arg8 (c : Dev nD) : W3 m ρ c (Proc.devRef .tc main_arg8) = (m ((c : Thread nD τ).loc main_arg8)) :=
  (by host_skip main_arg8 : W3 m ρ c (Proc.devRef .tc main_arg8) = W2 m ρ c (Proc.devRef .tc main_arg8)).trans (W2_main_arg8 m ρ c)
theorem W3_main_arg10 (c : Dev nD) : W3 m ρ c (Proc.devRef .tc main_arg10) = (m ((c : Thread nD τ).loc main_arg10)) :=
  (by host_skip main_arg10 : W3 m ρ c (Proc.devRef .tc main_arg10) = W2 m ρ c (Proc.devRef .tc main_arg10)).trans (W2_main_arg10 m ρ c)
theorem W3_main_arg2 (c : Dev nD) : W3 m ρ c (Proc.devRef .tc main_arg2) = (m ((c : Thread nD τ).loc main_arg2)) :=
  (by host_skip main_arg2 : W3 m ρ c (Proc.devRef .tc main_arg2) = W2 m ρ c (Proc.devRef .tc main_arg2)).trans (W2_main_arg2 m ρ c)
theorem W3_main_arg3 (c : Dev nD) : W3 m ρ c (Proc.devRef .tc main_arg3) = (m ((c : Thread nD τ).loc main_arg3)) :=
  (by host_skip main_arg3 : W3 m ρ c (Proc.devRef .tc main_arg3) = W2 m ρ c (Proc.devRef .tc main_arg3)).trans (W2_main_arg3 m ρ c)
theorem W3_main_arg12 (c : Dev nD) : W3 m ρ c (Proc.devRef .tc main_arg12) = (m ((c : Thread nD τ).loc main_arg12)) :=
  (by host_skip main_arg12 : W3 m ρ c (Proc.devRef .tc main_arg12) = W2 m ρ c (Proc.devRef .tc main_arg12)).trans (W2_main_arg12 m ρ c)
theorem W3_main_arg13 (c : Dev nD) : W3 m ρ c (Proc.devRef .tc main_arg13) = (m ((c : Thread nD τ).loc main_arg13)) :=
  (by host_skip main_arg13 : W3 m ρ c (Proc.devRef .tc main_arg13) = W2 m ρ c (Proc.devRef .tc main_arg13)).trans (W2_main_arg13 m ρ c)
theorem W3_main_arg14 (c : Dev nD) : W3 m ρ c (Proc.devRef .tc main_arg14) = (m ((c : Thread nD τ).loc main_arg14)) :=
  (by host_skip main_arg14 : W3 m ρ c (Proc.devRef .tc main_arg14) = W2 m ρ c (Proc.devRef .tc main_arg14)).trans (W2_main_arg14 m ρ c)
theorem W3_main_arg15 (c : Dev nD) : W3 m ρ c (Proc.devRef .tc main_arg15) = (m ((c : Thread nD τ).loc main_arg15)) :=
  (by host_skip main_arg15 : W3 m ρ c (Proc.devRef .tc main_arg15) = W2 m ρ c (Proc.devRef .tc main_arg15)).trans (W2_main_arg15 m ρ c)
theorem W4_main_arg2 (c : Dev nD) : W4 m ρ c (Proc.devRef .tc main_arg2) = (m ((c : Thread nD τ).loc main_arg2)) :=
  (W4_of_ne m ρ c main_arg2 (by decide)).trans (W3_main_arg2 m ρ c)
theorem W4_main_arg3 (c : Dev nD) : W4 m ρ c (Proc.devRef .tc main_arg3) = (m ((c : Thread nD τ).loc main_arg3)) :=
  (W4_of_ne m ρ c main_arg3 (by decide)).trans (W3_main_arg3 m ρ c)
theorem W4_main_arg12 (c : Dev nD) : W4 m ρ c (Proc.devRef .tc main_arg12) = (m ((c : Thread nD τ).loc main_arg12)) :=
  (W4_of_ne m ρ c main_arg12 (by decide)).trans (W3_main_arg12 m ρ c)
theorem W4_main_arg13 (c : Dev nD) : W4 m ρ c (Proc.devRef .tc main_arg13) = (m ((c : Thread nD τ).loc main_arg13)) :=
  (W4_of_ne m ρ c main_arg13 (by decide)).trans (W3_main_arg13 m ρ c)
theorem W4_main_arg14 (c : Dev nD) : W4 m ρ c (Proc.devRef .tc main_arg14) = (m ((c : Thread nD τ).loc main_arg14)) :=
  (W4_of_ne m ρ c main_arg14 (by decide)).trans (W3_main_arg14 m ρ c)
theorem W4_main_arg15 (c : Dev nD) : W4 m ρ c (Proc.devRef .tc main_arg15) = (m ((c : Thread nD τ).loc main_arg15)) :=
  (W4_of_ne m ρ c main_arg15 (by decide)).trans (W3_main_arg15 m ρ c)

/-! ## The bias rows -/

theorem row_v0 (c : Dev nD) : row32 (V1 m ρ c main_v0 : S1x32.Idx → EReal) = vec32 ((m ((c : Thread nD τ).loc main_arg5)) : S32.Idx → EReal) := by
  funext k
  show StableHlo.after hostOps0 (W0 m ρ c) (Proc.devRef .tc main_v0) (ix2 (0 : Fin 1) k) = (m ((c : Thread nD τ).loc main_arg5)) (ix1 k)
  after_results
  exact shapeCast_a_1a_apply (W0 m ρ c (Proc.devRef .tc main_arg5)) shapeCasts_S32_S1x32 0 k
theorem row_v1 (c : Dev nD) : row32 (V1 m ρ c main_v1 : S1x32.Idx → EReal) = vec32 ((m ((c : Thread nD τ).loc main_arg7)) : S32.Idx → EReal) := by
  funext k
  show StableHlo.after hostOps0 (W0 m ρ c) (Proc.devRef .tc main_v1) (ix2 (0 : Fin 1) k) = (m ((c : Thread nD τ).loc main_arg7)) (ix1 k)
  after_results
  exact shapeCast_a_1a_apply (W0 m ρ c (Proc.devRef .tc main_arg7)) shapeCasts_S32_S1x32 0 k
theorem row_v3 (c : Dev nD) : row32 (V3 m ρ c main_v3 : S1x32.Idx → EReal) = vec32 ((m ((c : Thread nD τ).loc main_arg9)) : S32.Idx → EReal) := by
  funext k
  show StableHlo.after hostOps1 (W2 m ρ c) (Proc.devRef .tc main_v3) (ix2 (0 : Fin 1) k) = (m ((c : Thread nD τ).loc main_arg9)) (ix1 k)
  after_results
  exact (shapeCast_a_1a_apply (W2 m ρ c (Proc.devRef .tc main_arg9)) shapeCasts_S32_S1x32 0 k).trans (congrFun (W2_main_arg9 m ρ c) (ix1 k))
theorem row_v4 (c : Dev nD) : row32 (V3 m ρ c main_v4 : S1x32.Idx → EReal) = vec32 ((m ((c : Thread nD τ).loc main_arg11)) : S32.Idx → EReal) := by
  funext k
  show StableHlo.after hostOps1 (W2 m ρ c) (Proc.devRef .tc main_v4) (ix2 (0 : Fin 1) k) = (m ((c : Thread nD τ).loc main_arg11)) (ix1 k)
  after_results
  exact (shapeCast_a_1a_apply (W2 m ρ c (Proc.devRef .tc main_arg11)) shapeCasts_S32_S1x32 0 k).trans (congrFun (W2_main_arg11 m ρ c) (ix1 k))
set_option maxHeartbeats 2000000 in
theorem row_v27 (c : Dev nD) : row32 (V5 m ρ c main_v27 : S1x32.Idx → EReal) = vec32 ((m ((c : Thread nD τ).loc main_arg13)) : S32.Idx → EReal) := by
  funext k
  show StableHlo.after hostOps2 (W4 m ρ c) (Proc.devRef .tc main_v27) (ix2 (0 : Fin 1) k) = (m ((c : Thread nD τ).loc main_arg13)) (ix1 k)
  after_results
  exact (shapeCast_a_1a_apply (W4 m ρ c (Proc.devRef .tc main_arg13)) shapeCasts_S32_S1x32 0 k).trans (congrFun (W4_main_arg13 m ρ c) (ix1 k))
set_option maxHeartbeats 2000000 in
theorem row_v28 (c : Dev nD) : row32 (V5 m ρ c main_v28 : S1x32.Idx → EReal) = vec32 ((m ((c : Thread nD τ).loc main_arg15)) : S32.Idx → EReal) := by
  funext k
  show StableHlo.after hostOps2 (W4 m ρ c) (Proc.devRef .tc main_v28) (ix2 (0 : Fin 1) k) = (m ((c : Thread nD τ).loc main_arg15)) (ix1 k)
  after_results
  exact (shapeCast_a_1a_apply (W4 m ρ c (Proc.devRef .tc main_arg15)) shapeCasts_S32_S1x32 0 k).trans (congrFun (W4_main_arg15 m ρ c) (ix1 k))

/-! ## The node tables at the launch arrays -/

theorem table0_m (c : Dev nD) : table0 (V1 m ρ) c
    = nodeArr ((m ((c : Thread nD τ).loc main_arg0)) : S100000x32.Idx → EReal) ((m ((c : Thread nD τ).loc main_arg4)) : S32x32.Idx → EReal) (vec32 ((m ((c : Thread nD τ).loc main_arg5)) : S32.Idx → EReal))
        ((m ((c : Thread nD τ).loc main_arg6)) : S32x32.Idx → EReal) (vec32 ((m ((c : Thread nD τ).loc main_arg7)) : S32.Idx → EReal)) := by
  unfold table0
  rw [row_v0 m ρ c, row_v1 m ρ c]
  show nodeArr (W1 m ρ c (Proc.devRef .tc main_arg0)) (W1 m ρ c (Proc.devRef .tc main_arg4)) _ (W1 m ρ c (Proc.devRef .tc main_arg6)) _ = _
  rw [W1_main_arg0 m ρ c, W1_main_arg4 m ρ c, W1_main_arg6 m ρ c]

theorem table1_m (c : Dev nD) : table1 (V3 m ρ) c
    = nodeArr ((m ((c : Thread nD τ).loc main_arg1)) : S100000x32.Idx → EReal) ((m ((c : Thread nD τ).loc main_arg8)) : S32x32.Idx → EReal) (vec32 ((m ((c : Thread nD τ).loc main_arg9)) : S32.Idx → EReal))
        ((m ((c : Thread nD τ).loc main_arg10)) : S32x32.Idx → EReal) (vec32 ((m ((c : Thread nD τ).loc main_arg11)) : S32.Idx → EReal)) := by
  unfold table1
  rw [row_v3 m ρ c, row_v4 m ρ c]
  show nodeArr (W3 m ρ c (Proc.devRef .tc main_arg1)) (W3 m ρ c (Proc.devRef .tc main_arg8)) _ (W3 m ρ c (Proc.devRef .tc main_arg10)) _ = _
  rw [W3_main_arg1 m ρ c, W3_main_arg8 m ρ c, W3_main_arg10 m ρ c]

/-- The first node region's output is still in its buffer when the edge region's inputs are gathered. -/
theorem W4_main_v2 (c : Dev nD) : W4 m ρ c (Proc.devRef .tc main_v2) = table0 (V1 m ρ) c :=
  calc W4 m ρ c (Proc.devRef .tc main_v2)
    _ = W3 m ρ c (Proc.devRef .tc main_v2) := W4_of_ne m ρ c main_v2 (by decide)
    _ = W2 m ρ c (Proc.devRef .tc main_v2) := by host_skip main_v2
    _ = (dat0 (V1 m ρ) c).arrAt 5 cfg0.N := W2_arr m ρ c 5
    _ = table0 (V1 m ρ) c := final0 (V1 m ρ) c
/-- The second node region's output. -/
theorem W4_main_v5 (c : Dev nD) : W4 m ρ c (Proc.devRef .tc main_v5) = table1 (V3 m ρ) c :=
  (W4_arr m ρ c 5).trans (final1 (V3 m ρ) c)

/-! ## The gathered tables and the weight blocks -/

/-- Row `r` of the index pair array as gather indices: a negative index moved up by the table's length 100000. -/
def rowIndex (off : Fin 2 → Nat) (h : S2x2000000.Slices off S1x2000000) (x3 : (⟨S2x2000000, .i32⟩ : BufTy).Contents (Elt Ideal)) :
    (⟨S2000000x1, .i32⟩ : BufTy).Contents (Elt Ideal) :=
  broadcastInDim S2000000x1 ![0] bcast_S2000000_S2000000x1_0
    (select
      (cmpi CmpIPredicate.slt (shapeCast S2000000 (extractStridedSlice S1x2000000 off x3 h) shapeCasts_S1x2000000_S2000000)
        (broadcastInDim S2000000 ![] bcast_S_S2000000 (constantI S_ 32 0#32)))
      (addi (shapeCast S2000000 (extractStridedSlice S1x2000000 off x3 h) shapeCasts_S1x2000000_S2000000)
        (broadcastInDim S2000000 ![] bcast_S_S2000000 (constantI S_ 32 100000#32)))
      (shapeCast S2000000 (extractStridedSlice S1x2000000 off x3 h) shapeCasts_S1x2000000_S2000000))

set_option maxHeartbeats 2000000 in
theorem gat_v16 (c : Dev nD) : (V5 m ρ c main_v16 : S2000000x32.Idx → EReal)
    = Host.gather gather_S100000x32_S2000000x1_S2000000x32_1_0_n_n_0_1_132 (table0 (V1 m ρ) c)
        (rowIndex ![0, 0] slices_S2x2000000_S1x2000000_0_0 (m ((c : Thread nD τ).loc main_arg3))) := by
  show StableHlo.after hostOps2 (W4 m ρ c) (Proc.devRef .tc main_v16) = _
  after_results
  rw [W4_main_v2 m ρ c, W4_main_arg3 m ρ c]
  rfl
set_option maxHeartbeats 2000000 in
theorem gat_v23 (c : Dev nD) : (V5 m ρ c main_v23 : S2000000x32.Idx → EReal)
    = Host.gather gather_S100000x32_S2000000x1_S2000000x32_1_0_n_n_0_1_132 (table1 (V3 m ρ) c)
        (rowIndex ![1, 0] slices_S2x2000000_S1x2000000_1_0 (m ((c : Thread nD τ).loc main_arg3))) := by
  show StableHlo.after hostOps2 (W4 m ρ c) (Proc.devRef .tc main_v23) = _
  after_results
  rw [W4_main_v5 m ρ c, W4_main_arg3 m ρ c]
  rfl

set_option maxHeartbeats 2000000 in
theorem blk_v24 (c : Dev nD) : (V5 m ρ c main_v24 : S32x32.Idx → EReal) = colBlock 0 (by omega) ((m ((c : Thread nD τ).loc main_arg12)) : S32x96.Idx → EReal) := by
  funext i
  obtain ⟨a, j, rfl⟩ : ∃ (a : Fin 32) (j : Fin 32), i = ix2 a j := ⟨i 0, i 1, eq_ix2 i⟩
  show StableHlo.after hostOps2 (W4 m ρ c) (Proc.devRef .tc main_v24) (ix2 a j) = _
  after_results
  rw [W4_main_arg12 m ρ c]
  exact slice2_axis1_apply 0 _ slices_S32x96_S32x32_0_0 a j ⟨0 + j.val, by omega⟩ rfl
set_option maxHeartbeats 2000000 in
theorem blk_v25 (c : Dev nD) : (V5 m ρ c main_v25 : S32x32.Idx → EReal) = colBlock 32 (by omega) ((m ((c : Thread nD τ).loc main_arg12)) : S32x96.Idx → EReal) := by
  funext i
  obtain ⟨a, j, rfl⟩ : ∃ (a : Fin 32) (j : Fin 32), i = ix2 a j := ⟨i 0, i 1, eq_ix2 i⟩
  show StableHlo.after hostOps2 (W4 m ρ c) (Proc.devRef .tc main_v25) (ix2 a j) = _
  after_results
  rw [W4_main_arg12 m ρ c]
  exact slice2_axis1_apply 32 _ slices_S32x96_S32x32_0_32 a j ⟨32 + j.val, by omega⟩ rfl
set_option maxHeartbeats 2000000 in
theorem blk_v26 (c : Dev nD) : (V5 m ρ c main_v26 : S32x32.Idx → EReal) = colBlock 64 (by omega) ((m ((c : Thread nD τ).loc main_arg12)) : S32x96.Idx → EReal) := by
  funext i
  obtain ⟨a, j, rfl⟩ : ∃ (a : Fin 32) (j : Fin 32), i = ix2 a j := ⟨i 0, i 1, eq_ix2 i⟩
  show StableHlo.after hostOps2 (W4 m ρ c) (Proc.devRef .tc main_v26) (ix2 a j) = _
  after_results
  rw [W4_main_arg12 m ρ c]
  exact slice2_axis1_apply 64 _ slices_S32x96_S32x32_0_64 a j ⟨64 + j.val, by omega⟩ rfl

set_option maxHeartbeats 2000000 in
theorem V5_main_arg2 (c : Dev nD) : (V5 m ρ c main_arg2 : S2000000x32.Idx → EReal) = (m ((c : Thread nD τ).loc main_arg2)) :=
  (by host_skip main_arg2 : W5 m ρ c (Proc.devRef .tc main_arg2) = W4 m ρ c (Proc.devRef .tc main_arg2)).trans (W4_main_arg2 m ρ c)
set_option maxHeartbeats 2000000 in
theorem V5_main_arg14 (c : Dev nD) : (V5 m ρ c main_arg14 : S32x32.Idx → EReal) = (m ((c : Thread nD τ).loc main_arg14)) :=
  (by host_skip main_arg14 : W5 m ρ c (Proc.devRef .tc main_arg14) = W4 m ρ c (Proc.devRef .tc main_arg14)).trans (W4_main_arg14 m ρ c)

/-! ## The result -/

/-- The kernel program's result, of the launch arrays. -/
def kernelOut (c : Dev nD) : S2000000x32.Idx → EReal :=
  edgeArr ((m ((c : Thread nD τ).loc main_arg2)) : S2000000x32.Idx → EReal)
    (Host.gather gather_S100000x32_S2000000x1_S2000000x32_1_0_n_n_0_1_132
      (nodeArr ((m ((c : Thread nD τ).loc main_arg0)) : S100000x32.Idx → EReal) ((m ((c : Thread nD τ).loc main_arg4)) : S32x32.Idx → EReal) (vec32 ((m ((c : Thread nD τ).loc main_arg5)) : S32.Idx → EReal))
        ((m ((c : Thread nD τ).loc main_arg6)) : S32x32.Idx → EReal) (vec32 ((m ((c : Thread nD τ).loc main_arg7)) : S32.Idx → EReal)))
      (rowIndex ![0, 0] slices_S2x2000000_S1x2000000_0_0 (m ((c : Thread nD τ).loc main_arg3))))
    (Host.gather gather_S100000x32_S2000000x1_S2000000x32_1_0_n_n_0_1_132
      (nodeArr ((m ((c : Thread nD τ).loc main_arg1)) : S100000x32.Idx → EReal) ((m ((c : Thread nD τ).loc main_arg8)) : S32x32.Idx → EReal) (vec32 ((m ((c : Thread nD τ).loc main_arg9)) : S32.Idx → EReal))
        ((m ((c : Thread nD τ).loc main_arg10)) : S32x32.Idx → EReal) (vec32 ((m ((c : Thread nD τ).loc main_arg11)) : S32.Idx → EReal)))
      (rowIndex ![1, 0] slices_S2x2000000_S1x2000000_1_0 (m ((c : Thread nD τ).loc main_arg3))))
    (colBlock 0 (by omega) ((m ((c : Thread nD τ).loc main_arg12)) : S32x96.Idx → EReal)) (colBlock 32 (by omega) ((m ((c : Thread nD τ).loc main_arg12)) : S32x96.Idx → EReal))
    (colBlock 64 (by omega) ((m ((c : Thread nD τ).loc main_arg12)) : S32x96.Idx → EReal)) (vec32 ((m ((c : Thread nD τ).loc main_arg13)) : S32.Idx → EReal))
    ((m ((c : Thread nD τ).loc main_arg14)) : S32x32.Idx → EReal) (vec32 ((m ((c : Thread nD τ).loc main_arg15)) : S32.Idx → EReal))

theorem kernel_value (c : Dev nD) : W6 m ρ c (Proc.devRef .tc main_v29) = kernelOut m c := by
  refine (W6_arr m ρ c 9).trans ((final2 (V5 m ρ) c).trans ?_)
  unfold table2 kernelOut
  rw [V5_main_arg2 m ρ c, gat_v16 m ρ c, gat_v23 m ρ c, blk_v24 m ρ c, blk_v25 m ρ c, blk_v26 m ρ c, row_v27 m ρ c, V5_main_arg14 m ρ c,
    row_v28 m ρ c, table0_m m ρ c, table1_m m ρ c]

end Cert.EdgeKernel

end
-- ==== Proof.RefSide.lean ====
/-
  The reference program's result, read stage by stage, is the specification's edge update.

  Each dense layer of the reference is a product with a transposed weight, a bias broadcast over the rows and, for
  all but the last, a maximum with the zero array. Read at one entry (row p, column q) the product is the sum over l of
  the input row's entry l times the weight's entry (q, l), the broadcast bias is the bias's entry q, and the zero
  array is the extended real 0: the layer at that entry is the specification's row function at q. The two node tables
  are two such layers on each row of their input. The edge stage joins three arrays of 32 columns into one of 96 columns
  before its first layer; a sum over the 96 joined columns is the sum of the three sums over each third, and in each
  third the joined array is one of the three pieces and the weight's column is the matching column of its block. The
  two gathered node tables are kept as arrays: nothing here depends on which rows they hold.
-/
import proofs.«112529_j979252543696_2_alg».proof.Proof.Gen.ReferenceIdeal.Read
import proofs.«112529_j979252543696_2_alg».proof.Proof.Spec
import Idealize.ShloMosaic.Lib.Pipeline.Value
import Idealize.ShloMosaic.Lib.ValueLayout

noncomputable section

open scoped BigOperators

namespace Cert.EdgeRef

open Cert.ReferenceIdeal Cert.ReferenceIdeal.Read Cert.EdgeSpec Idealize.ShloMosaic Idealize.ShloMosaic.ValueIdx

/-- Two rank-2 indices with the same two coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-- The first layer of the first node table at row p, column k: the input row against row k of the weight, plus the
    bias at k, maximum with 0. -/
theorem hidden_v5 (x0 : FVec Ideal S100000x32 .f32) (x4 : FVec Ideal S32x32 .f32) (x5 : FVec Ideal S32 .f32)
    (p : Fin 100000) (k : Fin 32) :
    val_main_v5 (F := Ideal) x0 x4 x5 (ix2 p k) = max (linRow (fun l => x0 (ix2 p l)) x4 (vec32 x5) k) 0 := by
  rw [val_main_v5_apply, val_main_v4_apply, val_main_v1_apply, val_main_v3_apply, val_main_v2_apply,
    val_main_call0_v0_apply, val_main_call0_cst_apply, Ideal.maximumf_def, Ideal.addf_def, Ideal.ofBits_def,
    Ideal.ofBits_zero_f32]
  unfold linRow vec32
  refine congrArg (fun t : EReal => max t 0) ?_
  refine congrArg₂ (· + ·) (Finset.sum_congr rfl fun l _ => ?_) ?_
  · rw [val_main_v0_apply]
    exact congrArg₂ (· * ·) (congrArg x0 (by idx2)) (congrArg x4 (by idx2))
  · exact congrArg x5 (by idx1)

/-- The first node table is the specification's node table of its input: at row p, column q the second layer on the
    first layer's row. -/
theorem node_v11 (x0 : FVec Ideal S100000x32 .f32) (x4 : FVec Ideal S32x32 .f32) (x5 : FVec Ideal S32 .f32)
    (x6 : FVec Ideal S32x32 .f32) (x7 : FVec Ideal S32 .f32) :
    val_main_v11 (F := Ideal) x0 x4 x5 x6 x7 = nodeArr x0 x4 (vec32 x5) x6 (vec32 x7) := by
  funext i
  obtain ⟨p, q, rfl⟩ : ∃ (p : Fin 100000) (q : Fin 32), i = ix2 p q := ⟨i 0, i 1, eq_ix2 i⟩
  rw [val_main_v11_apply, val_main_v10_apply, val_main_v7_apply, val_main_v9_apply, val_main_v8_apply,
    val_main_call1_v0_apply, val_main_call1_cst_apply, Ideal.maximumf_def, Ideal.addf_def, Ideal.ofBits_def,
    Ideal.ofBits_zero_f32]
  unfold nodeArr nodeRow
  refine congrArg (fun t : EReal => max t 0) ?_
  unfold linRow vec32
  refine congrArg₂ (· + ·) (Finset.sum_congr rfl fun k _ => ?_) ?_
  · rw [val_main_v6_apply, show lidx_main_v7 (ix2 p q) k = ix2 p k from by idx2, hidden_v5]
    unfold linRow vec32
    exact congrArg₂ (· * ·) rfl (congrArg x6 (by idx2))
  · exact congrArg x7 (by idx1)

/-- The first layer of the second node table at row p, column k. -/
theorem hidden_v17 (x1 : FVec Ideal S100000x32 .f32) (x8 : FVec Ideal S32x32 .f32) (x9 : FVec Ideal S32 .f32)
    (p : Fin 100000) (k : Fin 32) :
    val_main_v17 (F := Ideal) x1 x8 x9 (ix2 p k) = max (linRow (fun l => x1 (ix2 p l)) x8 (vec32 x9) k) 0 := by
  rw [val_main_v17_apply, val_main_v16_apply, val_main_v13_apply, val_main_v15_apply, val_main_v14_apply,
    val_main_call2_v0_apply, val_main_call2_cst_apply, Ideal.maximumf_def, Ideal.addf_def, Ideal.ofBits_def,
    Ideal.ofBits_zero_f32]
  unfold linRow vec32
  refine congrArg (fun t : EReal => max t 0) ?_
  refine congrArg₂ (· + ·) (Finset.sum_congr rfl fun l _ => ?_) ?_
  · rw [val_main_v12_apply]
    exact congrArg₂ (· * ·) (congrArg x1 (by idx2)) (congrArg x8 (by idx2))
  · exact congrArg x9 (by idx1)

/-- The second node table is the specification's node table of its input. -/
theorem node_v23 (x1 : FVec Ideal S100000x32 .f32) (x8 : FVec Ideal S32x32 .f32) (x9 : FVec Ideal S32 .f32)
    (x10 : FVec Ideal S32x32 .f32) (x11 : FVec Ideal S32 .f32) :
    val_main_v23 (F := Ideal) x1 x8 x9 x10 x11 = nodeArr x1 x8 (vec32 x9) x10 (vec32 x11) := by
  funext i
  obtain ⟨p, q, rfl⟩ : ∃ (p : Fin 100000) (q : Fin 32), i = ix2 p q := ⟨i 0, i 1, eq_ix2 i⟩
  rw [val_main_v23_apply, val_main_v22_apply, val_main_v19_apply, val_main_v21_apply, val_main_v20_apply,
    val_main_call3_v0_apply, val_main_call3_cst_apply, Ideal.maximumf_def, Ideal.addf_def, Ideal.ofBits_def,
    Ideal.ofBits_zero_f32]
  unfold nodeArr nodeRow
  refine congrArg (fun t : EReal => max t 0) ?_
  unfold linRow vec32
  refine congrArg₂ (· + ·) (Finset.sum_congr rfl fun k _ => ?_) ?_
  · rw [val_main_v18_apply, show lidx_main_v19 (ix2 p q) k = ix2 p k from by idx2, hidden_v17]
    unfold linRow vec32
    exact congrArg₂ (· * ·) rfl (congrArg x10 (by idx2))
  · exact congrArg x11 (by idx1)

section Joined
variable {α : Type} (y0 y1 y2 : S2000000x32.Idx → α)
  (h : Shape.Concatenates [S2000000x32, S2000000x32, S2000000x32] S2000000x96 1)

/-- Three arrays of 32 columns joined along the columns, read in the first third: the first array. -/
theorem joined_first (e : Fin 2000000) (l : Fin 32) :
    concatenate S2000000x96 1 [⟨S2000000x32, y0⟩, ⟨S2000000x32, y1⟩, ⟨S2000000x32, y2⟩] h
      (ix2 e (⟨l.val, by omega⟩ : Fin 96)) = y0 (ix2 e l) :=
  concatenate_apply_piece (1 : Fin S2000000x96.rank) [⟨S2000000x32, y0⟩, ⟨S2000000x32, y1⟩, ⟨S2000000x32, y2⟩] h _ 0
    (show (0 : Nat) < 3 by decide) S2000000x32 y0 rfl rfl 0 rfl (ix2 e l)
    (fun b hb => match b, hb with
      | ⟨0, _⟩, _ => rfl
      | ⟨1, _⟩, hb => absurd rfl hb)
    (Nat.zero_add _)

/-- Read in the second third: the second array, 32 columns back. -/
theorem joined_second (e : Fin 2000000) (l : Fin 32) :
    concatenate S2000000x96 1 [⟨S2000000x32, y0⟩, ⟨S2000000x32, y1⟩, ⟨S2000000x32, y2⟩] h
      (ix2 e (⟨32 + l.val, by omega⟩ : Fin 96)) = y1 (ix2 e l) :=
  concatenate_apply_piece (1 : Fin S2000000x96.rank) [⟨S2000000x32, y0⟩, ⟨S2000000x32, y1⟩, ⟨S2000000x32, y2⟩] h _ 1
    (show (1 : Nat) < 3 by decide) S2000000x32 y1 rfl rfl 32 rfl (ix2 e l)
    (fun b hb => match b, hb with
      | ⟨0, _⟩, _ => rfl
      | ⟨1, _⟩, hb => absurd rfl hb)
    rfl

/-- Read in the last third: the third array, 64 columns back. -/
theorem joined_third (e : Fin 2000000) (l : Fin 32) :
    concatenate S2000000x96 1 [⟨S2000000x32, y0⟩, ⟨S2000000x32, y1⟩, ⟨S2000000x32, y2⟩] h
      (ix2 e (⟨64 + l.val, by omega⟩ : Fin 96)) = y2 (ix2 e l) :=
  concatenate_apply_piece (1 : Fin S2000000x96.rank) [⟨S2000000x32, y0⟩, ⟨S2000000x32, y1⟩, ⟨S2000000x32, y2⟩] h _ 2
    (show (2 : Nat) < 3 by decide) S2000000x32 y2 rfl rfl 64 rfl (ix2 e l)
    (fun b hb => match b, hb with
      | ⟨0, _⟩, _ => rfl
      | ⟨1, _⟩, hb => absurd rfl hb)
    rfl

end Joined

/-- The transposed last-but-one weight at (joined column s, output column k) is the weight at (k, s). -/
theorem weight_entry (x12 : FVec Ideal S32x96 .f32) (e : Fin 2000000) (k : Fin 32) (s : Fin 96) :
    val_main_v43 (F := Ideal) x12 (ridx_main_v44 (ix2 e k) s) = x12 (ix2 k s) := by
  rw [val_main_v43_apply]
  exact congrArg x12 (by idx2)

/-- The left operand's index of the width-96 product: row e, joined column s. -/
theorem joined_index (e : Fin 2000000) (k : Fin 32) (s : Fin 96) : lidx_main_v44 (ix2 e k) s = ix2 e s := by idx2

/-- The edge stage's first layer at edge e, column k: the sum over the 96 joined columns split into its thirds, the
    joined row read in each third as the edge's own row and its two gathered node rows, against the matching column
    block of the weight; plus the bias at k, maximum with 0. -/
theorem hidden_v48 (x0 x1 : FVec Ideal S100000x32 .f32) (x2 : FVec Ideal S2000000x32 .f32)
    (x3 : (⟨S2x2000000, .i32⟩ : BufTy).Contents (Elt Ideal))
    (x4 : FVec Ideal S32x32 .f32) (x5 : FVec Ideal S32 .f32) (x6 : FVec Ideal S32x32 .f32) (x7 : FVec Ideal S32 .f32)
    (x8 : FVec Ideal S32x32 .f32) (x9 : FVec Ideal S32 .f32) (x10 : FVec Ideal S32x32 .f32) (x11 : FVec Ideal S32 .f32)
    (x12 : FVec Ideal S32x96 .f32) (x13 : FVec Ideal S32 .f32) (e : Fin 2000000) (k : Fin 32) :
    val_main_v48 (F := Ideal) x0 x1 x2 x3 x4 x5 x6 x7 x8 x9 x10 x11 x12 x13 (ix2 e k)
      = max ((∑ l : Fin 32, x2 (ix2 e l) * colBlock 0 (by omega) x12 (ix2 k l))
          + (∑ l : Fin 32, val_main_v32 (F := Ideal) x0 x3 x4 x5 x6 x7 (ix2 e l) * colBlock 32 (by omega) x12 (ix2 k l))
          + (∑ l : Fin 32, val_main_v41 (F := Ideal) x1 x3 x8 x9 x10 x11 (ix2 e l) * colBlock 64 (by omega) x12 (ix2 k l))
          + vec32 x13 k) 0 := by
  rw [val_main_v48_apply, val_main_v47_apply, val_main_v44_apply, val_main_v46_apply, val_main_v45_apply,
    val_main_call4_v0_apply, val_main_call4_cst_apply, Ideal.maximumf_def, Ideal.addf_def, Ideal.ofBits_def,
    Ideal.ofBits_zero_f32, sum_three_blocks]
  refine congrArg (fun t : EReal => max t 0) ?_
  refine congrArg₂ (· + ·) (congrArg₂ (· + ·) (congrArg₂ (· + ·) ?_ ?_) ?_) ?_
  · refine Finset.sum_congr rfl fun l _ => ?_
    rw [weight_entry, joined_index]
    unfold val_main_v42
    rw [joined_first]
    exact congrArg₂ (· * ·) rfl (congrArg x12 (congrArg (ix2 k) (Fin.ext (Nat.zero_add _).symm)))
  · refine Finset.sum_congr rfl fun l _ => ?_
    rw [weight_entry, joined_index]
    unfold val_main_v42
    rw [joined_second]
    rfl
  · refine Finset.sum_congr rfl fun l _ => ?_
    rw [weight_entry, joined_index]
    unfold val_main_v42
    rw [joined_third]
    rfl
  · exact congrArg x13 (by idx1)

/-- **The reference's result is the specification's edge update** of the edge array, the two gathered node tables
    (each the specification's node table of its input, gathered by its index array), the three column blocks of the
    width-96 weight, and the remaining weights and biases. -/
theorem ref_is_spec (x0 x1 : FVec Ideal S100000x32 .f32) (x2 : FVec Ideal S2000000x32 .f32)
    (x3 : (⟨S2x2000000, .i32⟩ : BufTy).Contents (Elt Ideal))
    (x4 : FVec Ideal S32x32 .f32) (x5 : FVec Ideal S32 .f32) (x6 : FVec Ideal S32x32 .f32) (x7 : FVec Ideal S32 .f32)
    (x8 : FVec Ideal S32x32 .f32) (x9 : FVec Ideal S32 .f32) (x10 : FVec Ideal S32x32 .f32) (x11 : FVec Ideal S32 .f32)
    (x12 : FVec Ideal S32x96 .f32) (x13 : FVec Ideal S32 .f32) (x14 : FVec Ideal S32x32 .f32) (x15 : FVec Ideal S32 .f32) :
    val_main_v53 (F := Ideal) x0 x1 x2 x3 x4 x5 x6 x7 x8 x9 x10 x11 x12 x13 x14 x15
      = edgeArr x2
          (Host.gather gather_S100000x32_S2000000x1_S2000000x32_1_0_n_n_0_1_132
            (nodeArr x0 x4 (vec32 x5) x6 (vec32 x7)) (val_main_v31 (F := Ideal) x3))
          (Host.gather gather_S100000x32_S2000000x1_S2000000x32_1_0_n_n_0_1_132
            (nodeArr x1 x8 (vec32 x9) x10 (vec32 x11)) (val_main_v40 (F := Ideal) x3))
          (colBlock 0 (by omega) x12) (colBlock 32 (by omega) x12) (colBlock 64 (by omega) x12) (vec32 x13) x14
          (vec32 x15) := by
  have g1 : val_main_v32 (F := Ideal) x0 x3 x4 x5 x6 x7
      = Host.gather gather_S100000x32_S2000000x1_S2000000x32_1_0_n_n_0_1_132
          (nodeArr x0 x4 (vec32 x5) x6 (vec32 x7)) (val_main_v31 (F := Ideal) x3) := by
    unfold val_main_v32
    rw [node_v11]
  have g2 : val_main_v41 (F := Ideal) x1 x3 x8 x9 x10 x11
      = Host.gather gather_S100000x32_S2000000x1_S2000000x32_1_0_n_n_0_1_132
          (nodeArr x1 x8 (vec32 x9) x10 (vec32 x11)) (val_main_v40 (F := Ideal) x3) := by
    unfold val_main_v41
    rw [node_v23]
  rw [← g1, ← g2]
  funext i
  obtain ⟨e, j, rfl⟩ : ∃ (e : Fin 2000000) (j : Fin 32), i = ix2 e j := ⟨i 0, i 1, eq_ix2 i⟩
  rw [val_main_v53_apply, val_main_v50_apply, val_main_v52_apply, val_main_v51_apply, Ideal.addf_def]
  unfold edgeArr edgeRow linRow
  refine congrArg₂ (· + ·) (Finset.sum_congr rfl fun k _ => ?_) ?_
  · rw [val_main_v49_apply, show lidx_main_v50 (ix2 e j) k = ix2 e k from by idx2, hidden_v48]
    exact congrArg₂ (· * ·) rfl (congrArg x14 (by idx2))
  · exact congrArg x15 (by idx1)

end Cert.EdgeRef

end
-- ==== Proof.lean ====
/-
  An edge update of a bipartite graph network: the kernel program and the reference compute the same array.

  Both programs take two node feature tables (100000 × 32 each), an edge feature table (2000000 × 32), a pair of index
  rows, and the weights and biases of three small dense networks. Each node table goes through two dense layers of width
  32, each followed by `max · 0`; for every edge the rows of the two compressed tables named by the edge's index pair
  are gathered; the edge's own row and the two gathered rows feed a dense layer of input width 96 and output width 32,
  `max · 0`, and a last dense layer of width 32. The reference joins the three rows into one of length 96 and multiplies
  by the 32 × 96 weight at once. The kernel program runs each node network as one tiled region (10 blocks of 10000 rows),
  gathers on the host, and runs the edge network as a third tiled region (250 blocks of 8000 rows) in which the
  width-96 product is the sum of three width-32 products against the three column blocks of the weight. On the extended
  reals, with every change of float format the identity, the two agree entry by entry: a sum over 96 positions is the
  sum of its three thirds (associativity and commutativity of addition, so no finiteness of the inputs is used), the
  gathers and their index arithmetic are the same host operations applied to equal tables, and every block of a tiled
  region's output is the corresponding rows of one whole-array function.

  The pieces: `Spec` states the row-level functions; `Payload` reads the three kernel bodies at one entry; `Blocks0`,
  `Blocks1`, `Blocks2` turn each region's blocks into its whole output array; `KRun` names the result buffer in the
  program's run; `Chain` follows every buffer back to the launch arrays; `RefSide` reads the reference's result.
-/
import proofs.«112529_j979252543696_2_alg».proof.Defs
import proofs.«112529_j979252543696_2_alg».proof.Proof.Gen.Kernel
import proofs.«112529_j979252543696_2_alg».proof.Proof.Gen.Kernel.Skeleton
import proofs.«112529_j979252543696_2_alg».proof.Proof.Gen.Kernel.Launch
import proofs.«112529_j979252543696_2_alg».proof.Proof.Gen.Kernel.Points
import proofs.«112529_j979252543696_2_alg».proof.Proof.Gen.Kernel.Frame
import proofs.«112529_j979252543696_2_alg».proof.Proof.Gen.KernelIdeal
import proofs.«112529_j979252543696_2_alg».proof.Proof.Gen.KernelIdeal.Skeleton
import proofs.«112529_j979252543696_2_alg».proof.Proof.Gen.KernelIdeal.Launch
import proofs.«112529_j979252543696_2_alg».proof.Proof.Gen.KernelIdeal.Points
import proofs.«112529_j979252543696_2_alg».proof.Proof.Gen.KernelIdeal.Frame
import proofs.«112529_j979252543696_2_alg».proof.Proof.Gen.ReferenceIdeal
import proofs.«112529_j979252543696_2_alg».proof.Proof.Gen.Pre_finite_inputs
import proofs.«112529_j979252543696_2_alg».proof.Proof.Gen.ReferenceIdeal.Run
import proofs.«112529_j979252543696_2_alg».proof.Proof.Gen.ReferenceIdeal.Read
import proofs.«112529_j979252543696_2_alg».proof.Proof.KRun
import proofs.«112529_j979252543696_2_alg».proof.Proof.Chain
import proofs.«112529_j979252543696_2_alg».proof.Proof.RefSide
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel :=
  fun m ρ _ => Cert.Kernel.Gen.frame m ρ

/-- So does the kernel program read on the extended reals. -/
theorem frame_kernelIdeal : Cert.frame_KernelIdeal :=
  fun m ρ _ => Cert.KernelIdeal.Gen.frame m ρ

/-- The reference is host operations only: its run, with the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- The two index chains are the same host operations on the same index array. -/
theorem index_rows (x3 : (⟨Cert.ReferenceIdeal.S2x2000000, .i32⟩ : BufTy).Contents (Elt Ideal)) :
    Cert.ReferenceIdeal.Read.val_main_v31 (F := Ideal) x3
        = Cert.EdgeKernel.rowIndex ![0, 0] Cert.KernelIdeal.Gen.slices_S2x2000000_S1x2000000_0_0 x3
      ∧ Cert.ReferenceIdeal.Read.val_main_v40 (F := Ideal) x3
        = Cert.EdgeKernel.rowIndex ![1, 0] Cert.KernelIdeal.Gen.slices_S2x2000000_S1x2000000_1_0 x3 :=
  ⟨rfl, rfl⟩

/-- From memories that agree on the arguments both programs end with the edge output of the specification at those
    arguments: the kernel program by its regions' closed forms followed back to the launch arrays, the reference by its
    operations read entry by entry. -/
theorem algebraic : Cert.algebraic_KernelIdeal_ReferenceIdeal := by
  intro m ρ m' ρ' _ hagree
  refine ⟨fun c => Cert.EdgeKernel.kernelOut m c, ?_, ?_⟩
  · exact (θ_run Cert.KernelIdeal.defs _ _).mono
      (fun r h c => ⟨(h c).1.trans (Cert.EdgeKernel.kernel_value m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.EdgeRef.ref_is_spec,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rw [(index_rows _).1, (index_rows _).2]
    rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_reference, trivial, Cert.Proof.algebraic⟩

end
